-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128 : Shape := ⟨1, ![128]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg5 : FVec F S128x128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S100000x128 .f32) (main_arg1 : IVec S2x1600000 32) (main_arg2 : FVec F S1600000 .f32) (main_arg3 : FVec F S128 .f32) (main_arg4 : FVec F S128 .f32) (main_arg5 : FVec F S128x128 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128 : Shape := ⟨1, ![128]⟩
abbrev S128x128 : Shape := ⟨2, ![128, 128]⟩
abbrev S1x128 : Shape := ⟨2, ![1, 128]⟩
abbrev S10000x128 : Shape := ⟨2, ![10000, 128]⟩
abbrev S10000 : Shape := ⟨1, ![10000]⟩
abbrev S10000x1 : Shape := ⟨2, ![10000, 1]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S100000x1 : Shape := ⟨2, ![100000, 1]⟩

abbrev nBuf : Space → Nat
  | .hbm => 62
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x128, .f32⟩
  | .hbm, ⟨8, _⟩ => ⟨S1x128, .f32⟩
  | .hbm, ⟨9, _⟩ => ⟨S100000x128, .bf16⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S100000, .i32⟩
  | .hbm, ⟨15, _⟩ => ⟨S1700000, .i32⟩
  | .hbm, ⟨16, _⟩ => ⟨S1700000, .i32⟩
  | .hbm, ⟨17, _⟩ => ⟨S_, .f32⟩
  | .hbm, ⟨18, _⟩ => ⟨S100000, .f32⟩
  | .hbm, ⟨19, _⟩ => ⟨S1700000, .f32⟩
  | .hbm, ⟨20, _⟩ => ⟨S_, .f32⟩
  | .hbm, ⟨21, _⟩ => ⟨S100000, .f32⟩
  | .hbm, ⟨22, _⟩ => ⟨S1700000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S1700000, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000x128, .bf16⟩
  | .hbm, ⟨51, _⟩ => ⟨S1700000x1, .f32⟩
  | .hbm, ⟨52, _⟩ => ⟨S1700000x128, .f32⟩
  | .hbm, ⟨53, _⟩ => ⟨S1700000x128, .f32⟩
  | .hbm, ⟨54, _⟩ => ⟨S1700000x128, .f32⟩
  | .hbm, ⟨55, _⟩ => ⟨S_, .f32⟩
  | .hbm, ⟨56, _⟩ => ⟨S100000x128, .f32⟩
  | .hbm, ⟨57, _⟩ => ⟨S1700000x1, .i32⟩
  | .hbm, ⟨58, _⟩ => ⟨S100000x128, .f32⟩
  | .hbm, ⟨59, _⟩ => ⟨S100000x1, .f32⟩
  | .hbm, ⟨60, _⟩ => ⟨S1x128, .f32⟩
  | .hbm, ⟨61, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S1x128, .f32⟩
  | .local _ .vmem, ⟨3, _⟩ => ⟨S1x128, .f32⟩
  | .local _ .vmem, ⟨4, _⟩ => ⟨S128x128, .f32⟩
  | .local _ .vmem, ⟨5, _⟩ => ⟨S10000x128, .bf16⟩
  | .local _ .vmem, ⟨6, _⟩ => ⟨S10000x128, .bf16⟩
  | .local _ .vmem, ⟨7, _⟩ => ⟨S10000x128, .f32⟩
  | .local _ .vmem, ⟨8, _⟩ => ⟨S10000x128, .f32⟩
  | .local _ .vmem, ⟨9, _⟩ => ⟨S10000x1, .f32⟩
  | .local _ .vmem, ⟨10, _⟩ => ⟨S10000x1, .f32⟩
  | .local _ .vmem, ⟨11, _⟩ => ⟨S1x128, .f32⟩
  | .local _ .vmem, ⟨12, _⟩ => ⟨S10000x128, .f32⟩
  | .local _ .vmem, ⟨13, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v18 : Ref sig .tc := ⟨.hbm, 31, rfl⟩
abbrev main_c : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_4 : Ref sig .tc := ⟨.hbm, 42, rfl⟩
abbrev main_v27 : Ref sig .tc := ⟨.hbm, 43, rfl⟩
abbrev main_v28 : Ref sig .tc := ⟨.hbm, 44, rfl⟩
abbrev main_c_5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10000x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  reduces_S10000x128_S10000 : S10000x128.Reduces [1] S10000
  shapeCasts_S10000_S10000x1 : S10000.ShapeCasts S10000x1
  broadcasts_S10000x1_S10000x128 : S10000x1.Broadcasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  packedbf16_S10000x128_S10000x128_0_0 : (Rect.unit (s := S10000x128) ![0, 0] S10000x128.size inb_S10000x128_S10000x128_0_0).PackedRows (EltTy.packing .bf16)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S100000_S100000x1 : S100000.ShapeCasts S100000x1
  shapeCasts_S10000x128_S10000x128 : S10000x128.ShapeCasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  dot_S10000x128_S128x128_S10000x128_1_1_0_0_n_n_wf : DotDims.WF S10000x128 S128x128 S10000x128 [1] [1] [0] [0] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x128.size a ≤ S100000x128.size a
  hwx0_4 : ∀ i : grid0.Coords, EltTy.bits .bf16 = 32 ∨ (Rect.block (s := S100000x128) S10000x128.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S100000x128.size a
  hwx1_3 : ∀ i : grid1.Coords, EltTy.bits .f32 = 32 ∨ (Rect.block (s := S100000x128) S10000x128.size (cc1_transform_3 i) (hinb1_3 i)).WholeWords (EltTy.packing .f32)

variable [Facts₀]

def dot_S10000x128_S128x128_S10000x128_1_1_0_0_n_n : DotDims S10000x128 S128x128 S10000x128 where
  lhsContracting := [1]
  rhsContracting := [1]
  lhsNonContracting := [0]
  rhsNonContracting := [0]
  lhsBatch := []
  rhsBatch := []
  wf := dot_S10000x128_S128x128_S10000x128_1_1_0_0_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S10000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v40) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128 : Shape := ⟨1, ![128]⟩
abbrev S128x128 : Shape := ⟨2, ![128, 128]⟩
abbrev S_ : Shape := ⟨0, ![]⟩
abbrev S100000 : Shape := ⟨1, ![100000]⟩
abbrev S100000x1 : Shape := ⟨2, ![100000, 1]⟩
abbrev S1x128 : Shape := ⟨2, ![1, 128]⟩
abbrev S1x1600000 : Shape := ⟨2, ![1, 1600000]⟩
abbrev S1700000 : Shape := ⟨1, ![1700000]⟩
abbrev S1700000x1 : Shape := ⟨2, ![1700000, 1]⟩
abbrev S1700000x128 : Shape := ⟨2, ![1700000, 128]⟩

abbrev nBuf : Space → Nat
  | .hbm => 102
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S_, .f32⟩
  | .hbm, ⟨8, _⟩ => ⟨S100000, .f32⟩
  | .hbm, ⟨9, _⟩ => ⟨S100000x1, .f32⟩
  | .hbm, ⟨10, _⟩ => ⟨S_, .f32⟩
  | .hbm, ⟨11, _⟩ => ⟨S100000x1, .f32⟩
  | .hbm, ⟨12, _⟩ => ⟨S100000x1, .f32⟩
  | .hbm, ⟨13, _⟩ => ⟨S100000x128, .f32⟩
  | .hbm, ⟨14, _⟩ => ⟨S100000x128, .f32⟩
  | .hbm, ⟨15, _⟩ => ⟨S100000x128, .f32⟩
  | .hbm, ⟨16, _⟩ => ⟨S_, .f32⟩
  | .hbm, ⟨17, _⟩ => ⟨S100000, .f32⟩
  | .hbm, ⟨18, _⟩ => ⟨S100000x1, .f32⟩
  | .hbm, ⟨19, _⟩ => ⟨S_, .f32⟩
  | .hbm, ⟨20, _⟩ => ⟨S100000x1, .f32⟩
  | .hbm, ⟨21, _⟩ => ⟨S100000x1, .f32⟩
  | .hbm, ⟨22, _⟩ => ⟨S100000x128, .f32⟩
  | .hbm, ⟨23, _⟩ => ⟨S100000x128, .f32⟩
  | .hbm, ⟨24, _⟩ => ⟨S_, .f32⟩
  | .hbm, ⟨25, _⟩ => ⟨S100000x1, .f32⟩
  | .hbm, ⟨26, _⟩ => ⟨S100000x1, .f32⟩
  | .hbm, ⟨27, _⟩ => ⟨S100000x1, .f32⟩
  | .hbm, ⟨28, _⟩ => ⟨S100000x128, .f32⟩
  | .hbm, ⟨29, _⟩ => ⟨S100000x128, .f32⟩
  | .hbm, ⟨30, _⟩ => ⟨S1x128, .f32⟩
  | .hbm, ⟨31, _⟩ => ⟨S100000x128, .f32⟩
  | .hbm, ⟨32, _⟩ => ⟨S100000x128, .f32⟩
  | .hbm, ⟨33, _⟩ => ⟨S1x128, .f32⟩
  | .hbm, ⟨34, _⟩ => ⟨S100000x128, .f32⟩
  | .hbm, ⟨35, _⟩ => ⟨S100000x128, .f32⟩
  | .hbm, ⟨36, _⟩ => ⟨S_, .f32⟩
  | .hbm, ⟨37, _⟩ => ⟨S100000x128, .f32⟩
  | .hbm, ⟨38, _⟩ => ⟨S100000x128, .f32⟩
  | .hbm, ⟨39, _⟩ => ⟨S128x128, .f32⟩
  | .hbm, ⟨40, _⟩ => ⟨S100000x128, .f32⟩
  | .hbm, ⟨41, _⟩ => ⟨S1x1600000, .i32⟩
  | .hbm, ⟨42, _⟩ => ⟨S1600000, .i32⟩
  | .hbm, ⟨43, _⟩ => ⟨S1x1600000, .i32⟩
  | .hbm, ⟨44, _⟩ => ⟨S1600000, .i32⟩
  | .hbm, ⟨45, _⟩ => ⟨S100000, .i32⟩
  | .hbm, ⟨46, _⟩ => ⟨S1700000, .i32⟩
  | .hbm, ⟨47, _⟩ => ⟨S1700000, .i32⟩
  | .hbm, ⟨48, _⟩ => ⟨S_, .f32⟩
  | .hbm, ⟨49, _⟩ => ⟨S100000, .f32⟩
  | .hbm, ⟨50, _⟩ => ⟨S1700000, .f32⟩
  | .hbm, ⟨51, _⟩ => ⟨S_, .f32⟩
  | .hbm, ⟨52, _⟩ => ⟨S100000, .f32⟩
  | .hbm, ⟨53, _⟩ => ⟨S1700000x1, .i32⟩
  | .hbm, ⟨54, _⟩ => ⟨S100000, .f32⟩
  | .hbm, ⟨55, _⟩ => ⟨S_, .f32⟩
  | .hbm, ⟨56, _⟩ => ⟨S100000, .f32⟩
  | .hbm, ⟨57, _⟩ => ⟨S100000, .i1⟩
  | .hbm, ⟨58, _⟩ => ⟨S100000, .f32⟩
  | .hbm, ⟨59, _⟩ => ⟨S_, .f32⟩
  | .hbm, ⟨60, _⟩ => ⟨S_, .f32⟩
  | .hbm, ⟨61, _⟩ => ⟨S100000, .f32⟩
  | .hbm, ⟨62, _⟩ => ⟨S100000, .f32⟩
  | .hbm, ⟨63, _⟩ => ⟨S_, .i32⟩
  | .hbm, ⟨64, _⟩ => ⟨S1700000, .i32⟩
  | .hbm, ⟨65, _⟩ => ⟨S1700000, .i1⟩
  | .hbm, ⟨66, _⟩ => ⟨S_, .i32⟩
  | .hbm, ⟨67, _⟩ => ⟨S1700000, .i32⟩
  | .hbm, ⟨68, _⟩ => ⟨S1700000, .i32⟩
  | .hbm, ⟨69, _⟩ => ⟨S1700000, .i32⟩
  | .hbm, ⟨70, _⟩ => ⟨S1700000x1, .i32⟩
  | .hbm, ⟨71, _⟩ => ⟨S1700000, .f32⟩
  | .hbm, ⟨72, _⟩ => ⟨S1700000, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000, .f32⟩
  | .hbm, ⟨82, _⟩ => ⟨S1700000, .f32⟩
  | .hbm, ⟨83, _⟩ => ⟨S_, .i32⟩
  | .hbm, ⟨84, _⟩ => ⟨S1700000, .i32⟩
  | .hbm, ⟨85, _⟩ => ⟨S1700000, .i1⟩
  | .hbm, ⟨86, _⟩ => ⟨S_, .i32⟩
  | .hbm, ⟨87, _⟩ => ⟨S1700000, .i32⟩
  | .hbm, ⟨88, _⟩ => ⟨S1700000, .i32⟩
  | .hbm, ⟨89, _⟩ => ⟨S1700000, .i32⟩
  | .hbm, ⟨90, _⟩ => ⟨S1700000x1, .i32⟩
  | .hbm, ⟨91, _⟩ => ⟨S1700000x128, .f32⟩
  | .hbm, ⟨92, _⟩ => ⟨S1700000x1, .f32⟩
  | .hbm, ⟨93, _⟩ => ⟨S1700000x128, .f32⟩
  | .hbm, ⟨94, _⟩ => ⟨S1700000x128, .f32⟩
  | .hbm, ⟨95, _⟩ => ⟨S_, .f32⟩
  | .hbm, ⟨96, _⟩ => ⟨S100000x128, .f32⟩
  | .hbm, ⟨97, _⟩ => ⟨S1700000x1, .i32⟩
  | .hbm, ⟨98, _⟩ => ⟨S100000x128, .f32⟩
  | .hbm, ⟨99, _⟩ => ⟨S1x128, .f32⟩
  | .hbm, ⟨100, _⟩ => ⟨S100000x128, .f32⟩
  | .hbm, ⟨101, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_call0_cst : Ref sig .tc := ⟨.hbm, 36, rfl⟩
abbrev main_call0_v0 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_4 : Ref sig .tc := ⟨.hbm, 48, rfl⟩
abbrev main_v34 : Ref sig .tc := ⟨.hbm, 49, rfl⟩
abbrev main_v35 : Ref sig .tc := ⟨.hbm, 50, rfl⟩
abbrev main_cst_5 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_6 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_7 : Ref sig .tc := ⟨.hbm, 59, rfl⟩
abbrev main_call1_v0 : Ref sig .tc := ⟨.hbm, 60, rfl⟩
abbrev main_call1_v1 : Ref sig .tc := ⟨.hbm, 61, rfl⟩
abbrev main_v42 : Ref sig .tc := ⟨.hbm, 62, rfl⟩
abbrev main_c : Ref sig .tc := ⟨.hbm, 63, rfl⟩
abbrev main_v43 : Ref sig .tc := ⟨.hbm, 64, rfl⟩
abbrev main_v44 : Ref sig .tc := ⟨.hbm, 65, rfl⟩
abbrev main_c_8 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_c_9 : Ref sig .tc := ⟨.hbm, 73, rfl⟩
abbrev main_v51 : Ref sig .tc := ⟨.hbm, 74, rfl⟩
abbrev main_v52 : Ref sig .tc := ⟨.hbm, 75, rfl⟩
abbrev main_c_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_c_11 : Ref sig .tc := ⟨.hbm, 83, rfl⟩
abbrev main_v59 : Ref sig .tc := ⟨.hbm, 84, rfl⟩
abbrev main_v60 : Ref sig .tc := ⟨.hbm, 85, rfl⟩
abbrev main_c_12 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_13 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩

abbrev nD : Nat := 1
abbrev τ : Topo := Topo.v7x

variable {F : FTy → Type} [FloatOps F]

class Facts₀ : Prop where
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  transposes_S128x128_S128x128_1_0 : S128x128.Transposes [1, 0] S128x128
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.KernelRun.lean ====
/-
  The idealized kernel's run with its result named.

  The program is two pipelined regions among three stretches of host operations. Its frame proof follows the device's
  buffer contents from boundary to boundary: at launch, after the two reshapes of gamma and beta, after the first region
  (LayerNorm, ReLU and the linear layer, block by block), after the degree normalisation and the gather / segment-sum of
  the messages, and after the second region (the rescaling by the destination's factor and the bias). The last
  boundary's contents `W6` hold every unscoped buffer at the end of every execution; here the same run is stated with
  the result buffer read off that boundary, beside the arguments, which end as launched.
-/
import proofs.«180763_j17145509446019_2_alg».proof.Proof.Gen.KernelIdeal.Frame

set_option maxRecDepth 16384

noncomputable section

namespace Cert.KernelIdeal.RunV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last
    boundary's contents and the argument arrays end as launched. -/
theorem run_result : θ_run defs (onTc (τ := τ) (main (F := F))) ⟨m, fun _ => 0, ρ⟩ (fun r => ∀ c : Dev nD,
      r.2.mem ((c.tc : Thread nD τ).loc main_v43) = W6 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v43 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c)⟩)

end Cert.KernelIdeal.RunV

end
-- ==== Proof.LibKeepdims.lean ====
/-
  A row sum kept as a column, read at an index.

  `jnp.sum(x, axis=-1, keepdims=True)` leaves an [a] vector cast to an [a, 1] column, and adding it to its own
  transpose broadcasts the column along the rows of an [a, b] matrix. Read at an index, the column at (i, u) is
  the vector at i, and the column broadcast along the rows at (p, c) is the column at (p, 0). (The companion
  forms — a row broadcast down the columns, the transpose of a matrix — are in the library's layout lemmas.)
-/
import Idealize.ShloMosaic.Lib.Pipeline.Value
import Idealize.ShloMosaic.Lib.ValueIdx

noncomputable section

namespace Idealize.ShloMosaic.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Keepdims

end
-- ==== Proof.FinalizeValue.lean ====
/-
  The second region read as one whole-array function.

  The region walks ten row blocks of 10000 rows. At each block it loads the aggregated messages `agg` (10000 × 128),
  the destination factors as a column (10000 × 1) and the bias as a row (1 × 128), and stores
  `agg * factor + bias`, the column broadcast along the rows and the row down the columns. Row `r` of block `t` is
  row `10000 t + r` of every array, so the ten write-backs tile the result and it ends holding, at `(n, c)`,
  `agg (n, c) * factor (n, 0) + bias (0, c)`.
-/
import proofs.«180763_j17145509446019_2_alg».proof.Proof.Gen.KernelIdeal.Frame
import proofs.«180763_j17145509446019_2_alg».proof.Proof.LibKeepdims
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Finalize

open Cert.KernelIdeal Cert.KernelIdeal.Gen

/-- The region's result: the aggregate scaled row by row, plus the bias column by column. -/
def scaled (agg : S100000x128.Idx → EReal) (dcol : S100000x1.Idx → EReal) (brow : S1x128.Idx → EReal) :
    S100000x128.Idx → EReal :=
  fun i => agg i * dcol (ix2 (⟨(i 0).val, idx2_lt0 i⟩ : Fin 100000) (0 : Fin 1))
    + brow (ix2 (0 : Fin 1) (⟨(i 1).val, idx2_lt1 i⟩ : Fin 128))

theorem hz : (![0, 0] : Fin 2 → Nat) = fun _ => 0 := funext fun a => by fin_cases a <;> rfl

/-- The body's stored value at `(p, q)` of a block. -/
theorem pay_apply (x0 : Vec Ideal S10000x128 .f32) (x1 : Vec Ideal S10000x1 .f32) (x2 : Vec Ideal S1x128 .f32)
    (y : S10000x128.Idx) :
    (k1_pay1 (F := Ideal) x0 x1 x2 y : EReal)
      = x0 y * x1 (ix2 (⟨(y 0).val, idx2_lt0 y⟩ : Fin 10000) (0 : Fin 1))
        + x2 (ix2 (0 : Fin 1) (⟨(y 1).val, idx2_lt1 y⟩ : Fin 128)) := by
  obtain ⟨p, q, rfl⟩ : ∃ (p : Fin 10000) (q : Fin 128), y = ix2 p q := ⟨y 0, y 1, eq_ix2 y⟩
  unfold k1_pay1
  simp only [shapeCast_self]
  rw [addf_apply, mulf_apply, Keepdims.broadcastTo_a1_ab_apply, broadcastTo_1b_ab_apply]

section Region
-- the buffer contents when the region is entered
variable (V : (c : Dev nD) → (b : Ref sig .tc) → Buf (Elt Ideal) ((c : Thread nD τ).loc b))

/-- The printed index maps over the grid: the three row-blocked windows are at block `(t, 0)`, the bias at `(0, 0)`. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row `r` of block `t` of the aggregate is row `10000 t + r` of the array. -/
theorem iblk_agg_apply (c : Dev nD) (t : Fin cfg1.N) (x : S10000x128.Idx) (k : S100000x128.Idx)
    (hk0 : (k 0).val = 10000 * t.val + (x 0).val) (hk1 : (k 1).val = (x 1).val) :
    (iblk1 V c 0 t : Vec Ideal S10000x128 .f32) x = (V c main_v40 : S100000x128.Idx → EReal) k := by
  obtain ⟨e0, e1, -⟩ := idx_facts t
  unfold iblk1
  rw [View.read_apply]
  show V c main_v40 _ = V c main_v40 _
  congr 1
  funext a
  apply Fin.ext
  match a with
  | ⟨0, _⟩ => show win1_0.index t 0 * 10000 + 1 * (x 0).val = (k 0).val; rw [e0, hk0]; omega
  | ⟨1, _⟩ => show win1_0.index t 1 * 128 + 1 * (x 1).val = (k 1).val; rw [e1, hk1]; omega

/-- Row `r` of block `t` of the factor column is row `10000 t + r` of the column. -/
theorem iblk_col_apply (c : Dev nD) (t : Fin cfg1.N) (x : S10000x1.Idx) (k : S100000x1.Idx)
    (hk0 : (k 0).val = 10000 * t.val + (x 0).val) (hk1 : (k 1).val = (x 1).val) :
    (iblk1 V c 1 t : Vec Ideal S10000x1 .f32) x = (V c main_v41 : S100000x1.Idx → EReal) k := by
  obtain ⟨-, -, e0, e1, -⟩ := idx_facts t
  unfold iblk1
  rw [View.read_apply]
  show V c main_v41 _ = V c main_v41 _
  congr 1
  funext a
  apply Fin.ext
  match a with
  | ⟨0, _⟩ => show win1_1.index t 0 * 10000 + 1 * (x 0).val = (k 0).val; rw [e0, hk0]; omega
  | ⟨1, _⟩ => show win1_1.index t 1 * 1 + 1 * (x 1).val = (k 1).val; rw [e1, hk1]; omega

/-- The bias row's one block is the row. -/
theorem iblk_row_apply (c : Dev nD) (t : Fin cfg1.N) (x : S1x128.Idx) (k : S1x128.Idx)
    (hk0 : (k 0).val = (x 0).val) (hk1 : (k 1).val = (x 1).val) :
    (iblk1 V c 2 t : Vec Ideal S1x128 .f32) x = (V c main_v42 : S1x128.Idx → EReal) k := by
  obtain ⟨-, -, -, -, e0, e1, -⟩ := idx_facts t
  unfold iblk1
  rw [View.read_apply]
  show V c main_v42 _ = V c main_v42 _
  congr 1
  funext a
  apply Fin.ext
  match a with
  | ⟨0, _⟩ => show win1_2.index t 0 * 1 + 1 * (x 0).val = (k 0).val; rw [e0, hk0]; omega
  | ⟨1, _⟩ => show win1_2.index t 1 * 128 + 1 * (x 1).val = (k 1).val; rw [e1, hk1]; omega

/-- What point `t` writes back is block `t` of the scaled aggregate of the arrays as the region finds them. -/
theorem flushed_eq (c : Dev nD) (t : Fin cfg1.N) :
    (dat1 V c).flushed 3 t
      = ((cfg1.win 3).blk t).view.read (Elt Ideal) (scaled (V c main_v40) (V c main_v41) (V c main_v42)) := by
  show (cfg1.win 3).cut (grid1.coords t) ((dat1 V c).after 3 t) = _
  rw [after1_3]
  unfold out1_3
  rw [View.canon_unit_zero hz]
  simp only [View.ld_unit_zero (S := S10000x128) hz, View.ld_unit_zero (S := S10000x1) hz, View.ld_unit_zero (S := S1x128) hz]
  obtain ⟨-, -, -, -, -, -, e0, e1⟩ := idx_facts t
  funext j
  refine (pay_apply _ _ _ j).trans ?_
  have h0 : ((((cfg1.win 3).blk t).view.emb j) 0).val = 10000 * t.val + (j 0).val := by
    show win1_3.index t 0 * 10000 + 1 * (j 0).val = _; rw [e0]; omega
  have h1 : ((((cfg1.win 3).blk t).view.emb j) 1).val = (j 1).val := by
    show win1_3.index t 1 * 128 + 1 * (j 1).val = _; rw [e1]; omega
  rw [iblk_agg_apply V c t j (((cfg1.win 3).blk t).view.emb j) h0 h1,
    iblk_col_apply V c t (ix2 (⟨(j 0).val, idx2_lt0 (n0 := 10000) (n1 := 128) j⟩ : Fin 10000) (0 : Fin 1))
      (ix2 (⟨((((cfg1.win 3).blk t).view.emb j) 0).val, idx2_lt0 _⟩ : Fin 100000) (0 : Fin 1)) h0 rfl,
    iblk_row_apply V c t (ix2 (0 : Fin 1) (⟨(j 1).val, idx2_lt1 (n0 := 10000) (n1 := 128) j⟩ : Fin 128))
      (ix2 (0 : Fin 1) (⟨((((cfg1.win 3).blk t).view.emb j) 1).val, idx2_lt1 _⟩ : Fin 128)) rfl h1,
    View.read_apply]
  rfl

/-- An index of the result is in point `t`'s block iff each coordinate is in the block's range on its axis. -/
theorem mem_blk (t : Fin cfg1.N) (i : S100000x128.Idx) :
    i ∈ ((cfg1.win 3).blk t).view.set ↔ ∀ a : Fin 2, win1_3.index t a * S10000x128.size a ≤ (i a).val ∧ (i a).val < win1_3.index t a * S10000x128.size a + S10000x128.size a := by
  show i ∈ ((View.whole main_v43).slice (win1_3.rect t)).set ↔ _
  rw [View.set_slice_whole, Rect.mem_set_unit]
  exact Iff.rfl

/-- The ten row blocks tile the result: row `n` is in block `n / 10000`. -/
theorem cover (i : S100000x128.Idx) :
    ∃ t : Fin cfg1.N, (cfg1.win 3).flush t = true ∧ i ∈ ((cfg1.win 3).blk t).view.set := by
  have hN : cfg1.N = 10 := N_1
  have hi0 : (i 0).val < 100000 := idx2_lt0 i
  have hi1 : (i 1).val < 128 := idx2_lt1 i
  refine ⟨⟨(i 0).val / 10000, by rw [hN]; omega⟩, flush1_3 _, ?_⟩
  rw [mem_blk]
  obtain ⟨-, -, -, -, -, -, e0, e1⟩ := idx_facts ⟨(i 0).val / 10000, by rw [hN]; omega⟩
  intro a
  match a with
  | ⟨0, _⟩ =>
    show win1_3.index _ 0 * 10000 ≤ (i 0).val ∧ (i 0).val < win1_3.index _ 0 * 10000 + 10000
    rw [e0]; show (i 0).val / 10000 * 10000 ≤ (i 0).val ∧ (i 0).val < (i 0).val / 10000 * 10000 + 10000; omega
  | ⟨1, _⟩ =>
    show win1_3.index _ 1 * 128 ≤ (i 1).val ∧ (i 1).val < win1_3.index _ 1 * 128 + 128
    rw [e1]; omega

/-- The result array after the region: the scaled aggregate of the arrays as the region finds them. -/
theorem final (c : Dev nD) :
    (dat1 V c).arrAt 3 cfg1.N = scaled (V c main_v40) (V c main_v41) (V c main_v42) :=
  (dat1 V c).arrAt_eq_of_cover 3 _ (fun t _ => flushed_eq V c t) cover

end Region

end Cert.KernelIdeal.Finalize

end
-- ==== Proof.Spec.lean ====
/-
  The hidden features as one function of the arguments.

  Each row `x` of 128 features is normalised (its mean `μ = (∑ x) / 128`, its variance `σ² = (∑ (x − μ)²) / 128`,
  scaled by `1 / √(σ² + ε)`), multiplied by `gamma`, shifted by `beta` and cut at zero; the hidden feature `(n, j)`
  is the product of that row with row `j` of the weights, summed over the 128 features. Everything is read on the
  extended reals, every operation the exact one; the three float literals (128, ε, 0) stay the words the programs
  print, the same on both sides.
-/
import Idealize.ShloMosaic.Lib.ValueIdx
import Idealize.ShloMosaic.PureOps.Ideal

noncomputable section

open scoped BigOperators

namespace Cert.Spec

open Idealize.ShloMosaic Idealize.ShloMosaic.ValueIdx

/-- Row `r` of a matrix with 128 columns. -/
def rowOf {n : Nat} (x : (⟨2, ![n, 128]⟩ : Shape).Idx → EReal) (r : Fin n) : Fin 128 → EReal := fun k => x (ix2 r k)

/-- The mean of a row of 128. -/
def mean (xr : Fin 128 → EReal) : EReal := Ideal.div (∑ k, xr k) (Ideal.ofBits .f32 0x43000000#32)

/-- The reciprocal standard deviation of a row: `1 / √(σ² + ε)`. -/
def rstd (xr : Fin 128 → EReal) : EReal :=
  Ideal.rsqrt (Ideal.div (∑ k, (xr k - mean xr) * (xr k - mean xr)) (Ideal.ofBits .f32 0x43000000#32)
    + Ideal.ofBits .f32 0x3727C5AC#32)

/-- The normalised, scaled, shifted and rectified entry `k` of a row. -/
def act (xr g b : Fin 128 → EReal) (k : Fin 128) : EReal :=
  max ((xr k - mean xr) * rstd xr * g k + b k) (Ideal.ofBits .f32 0x00000000#32)

/-- The hidden features, with `gamma` and `beta` as `[1, 128]` rows: entry `(n, j)` is the activated row `n` against
    row `j` of the weights. -/
def hiddenRows (x : (⟨2, ![100000, 128]⟩ : Shape).Idx → EReal) (g2 b2 : (⟨2, ![1, 128]⟩ : Shape).Idx → EReal)
    (W : (⟨2, ![128, 128]⟩ : Shape).Idx → EReal) : (⟨2, ![100000, 128]⟩ : Shape).Idx → EReal :=
  fun i => ∑ k : Fin 128, act (rowOf x ⟨(i 0).val, idx2_lt0 i⟩) (rowOf g2 0) (rowOf b2 0) k
    * rowOf W ⟨(i 1).val, idx2_lt1 i⟩ k

/-- The hidden features of the arguments: `gamma` and `beta` vectors of 128. -/
def hiddenOf (x : (⟨2, ![100000, 128]⟩ : Shape).Idx → EReal) (g b : (⟨1, ![128]⟩ : Shape).Idx → EReal)
    (W : (⟨2, ![128, 128]⟩ : Shape).Idx → EReal) : (⟨2, ![100000, 128]⟩ : Shape).Idx → EReal :=
  fun i => ∑ k : Fin 128, act (rowOf x ⟨(i 0).val, idx2_lt0 i⟩) (fun k' => g (ix1 k')) (fun k' => b (ix1 k')) k
    * rowOf W ⟨(i 1).val, idx2_lt1 i⟩ k

end Cert.Spec

end
-- ==== Proof.LinearValue.lean ====
/-
  The first region read as one whole-array function.

  The region walks ten row blocks of 10000 rows of `x`. At each block it loads the block, the `gamma` and `beta` rows and
  the whole weight matrix, normalises every row of the block (two lane sums, each divided by 128; `1 / √(σ² + ε)`),
  scales, shifts, rectifies, and multiplies by the weights contracted over the 128 features of both operands. A
  change of float format is the identity on the extended reals, the lane sums and the matrix product are plain finite
  sums, so the stored value at `(p, q)` of a block is the specification's activated row `p` of the block against row
  `q` of the weights. Row `p` of block `t` is row `10000 t + p` of `x`, the other three windows do not move, and the ten
  write-backs tile the result: it ends holding the hidden features of the arrays as the region finds them.
-/
import proofs.«180763_j17145509446019_2_alg».proof.Proof.Gen.KernelIdeal.Frame
import proofs.«180763_j17145509446019_2_alg».proof.Proof.LibKeepdims
import proofs.«180763_j17145509446019_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Linear

open Cert.KernelIdeal Cert.KernelIdeal.Gen Cert.Spec

theorem hz : (![0, 0] : Fin 2 → Nat) = fun _ => 0 := funext fun a => by fin_cases a <;> rfl

/-- A lane sum of a block at row `p`: the sum of the row's 128 entries. -/
theorem rowsum_apply (src : FVec Ideal S10000x128 .f32) (hφ : FTy.f32 = FTy.f32 ∨ FTy.f32 = FTy.bf16)
    (hacc : @Eq (BitVec FTy.f32.bits) (0x00000000#32) (0x00000000#32)) (p : Fin 10000) :
    (multiReduction .add [1] S10000 src 0x00000000#32 reduces_S10000x128_S10000 hφ hacc (ix1 p) : EReal)
      = ∑ k : Fin 128, src (ix2 p k) := by
  refine (Ideal.multiReduction_add_single src 0x00000000#32 reduces_S10000x128_S10000 hφ hacc (ix1 p)).trans ?_
  refine Finset.sum_congr rfl fun k _ => ?_
  exact congrArg src (funext fun a => Fin.ext (by match a with | ⟨0, _⟩ => rfl | ⟨1, _⟩ => rfl))

/-- The index a lane sum reads at row `p`, column `k`. -/
theorem lift_eq (p : Fin 10000) (k : Fin (S10000x128.size 1)) :
    reduces_S10000x128_S10000.lift (ix1 p) k = ix2 p (⟨k.val, k.isLt⟩ : Fin 128) :=
  funext fun a => Fin.ext (by match a with | ⟨0, _⟩ => rfl | ⟨1, _⟩ => rfl)

theorem rsqrt_apply {s : Shape} {φ : FTy} (v : FVec Ideal s φ) (i : s.Idx) : rsqrt v i = Ideal.rsqrt (v i) := rfl

/-- The block's matrix product at `(p, q)`: row `p` of the left operand against row `q` of the right one, both
    contracted over their 128 columns. -/
theorem matmul_at (lhs : FVec Ideal S10000x128 .bf16) (rhs : FVec Ideal S128x128 .bf16) (p : Fin 10000) (q : Fin 128) :
    (matmul dot_S10000x128_S128x128_S10000x128_1_1_0_0_n_n none lhs rhs (constant S10000x128 .f32 0x00000000#32) (ix2 p q) : EReal)
      = ∑ k : Fin 128, lhs (ix2 p k) * rhs (ix2 q k) := by
  simp only [matmul]
  rw [Ideal.matmul_constant_zero_apply, ← Equiv.sum_comp (contrEquiv1 dot_S10000x128_S128x128_S10000x128_1_1_0_0_n_n 128 rfl rfl).symm]
  refine Finset.sum_congr rfl fun k _ => ?_
  have hk := contrEquiv1_symm_val dot_S10000x128_S128x128_S10000x128_1_1_0_0_n_n 128 rfl rfl k
  have el : dot_S10000x128_S128x128_S10000x128_1_1_0_0_n_n.lhsIdx (ix2 p q) ((contrEquiv1 dot_S10000x128_S128x128_S10000x128_1_1_0_0_n_n 128 rfl rfl).symm k) = ix2 p k := funext fun a => Fin.ext (by
    match a with
    | ⟨0, _⟩ =>
      show (dot_S10000x128_S128x128_S10000x128_1_1_0_0_n_n.lhsIdx (ix2 p q) _ 0).val = p.val
      unfold DotDims.lhsIdx
      rw [dif_neg (show ¬(0 : Fin S10000x128.rank) ∈ dot_S10000x128_S128x128_S10000x128_1_1_0_0_n_n.lhsBatch by decide), dif_pos (show (0 : Fin S10000x128.rank) ∈ dot_S10000x128_S128x128_S10000x128_1_1_0_0_n_n.lhsNonContracting by decide)]
      rfl
    | ⟨1, _⟩ => exact (dot_S10000x128_S128x128_S10000x128_1_1_0_0_n_n.lhsIdx_val_of_single rfl _ _).trans hk)
  have er : dot_S10000x128_S128x128_S10000x128_1_1_0_0_n_n.rhsIdx (ix2 p q) ((contrEquiv1 dot_S10000x128_S128x128_S10000x128_1_1_0_0_n_n 128 rfl rfl).symm k) = ix2 q k := funext fun a => Fin.ext (by
    match a with
    | ⟨0, _⟩ =>
      show (dot_S10000x128_S128x128_S10000x128_1_1_0_0_n_n.rhsIdx (ix2 p q) _ 0).val = q.val
      unfold DotDims.rhsIdx
      rw [dif_neg (show ¬(0 : Fin S128x128.rank) ∈ dot_S10000x128_S128x128_S10000x128_1_1_0_0_n_n.rhsBatch by decide), dif_pos (show (0 : Fin S128x128.rank) ∈ dot_S10000x128_S128x128_S10000x128_1_1_0_0_n_n.rhsNonContracting by decide)]
      rfl
    | ⟨1, _⟩ => exact (dot_S10000x128_S128x128_S10000x128_1_1_0_0_n_n.rhsIdx_val_of_single rfl _ _).trans hk)
  rw [el, er]

/-- The body's stored value at `(p, q)` of a block: the activated row `p` against row `q` of the weights. -/
theorem pay_apply (x0 : FVec Ideal S10000x128 .f32) (x1 x2 : FVec Ideal S1x128 .f32) (x3 : FVec Ideal S128x128 .f32)
    (y : S10000x128.Idx) :
    (k0_pay1 (F := Ideal) x0 x1 x2 x3 y : EReal)
      = ∑ k : Fin 128, act (rowOf x0 ⟨(y 0).val, idx2_lt0 y⟩) (rowOf x1 0) (rowOf x2 0) k * rowOf x3 ⟨(y 1).val, idx2_lt1 y⟩ k := by
  obtain ⟨p, q, rfl⟩ : ∃ (p : Fin 10000) (q : Fin 128), y = ix2 p q := ⟨y 0, y 1, eq_ix2 y⟩
  unfold k0_pay1
  simp only [shapeCast_self]
  rw [truncf_apply, matmul_at]
  refine Finset.sum_congr rfl fun k _ => ?_
  rw [truncf_apply, truncf_apply]
  refine congrArg (· * x3 (ix2 q k)) ?_
  simp only [maximumf_apply, addf_apply, mulf_apply, subf_apply, divf_apply, broadcast_apply, rsqrt_apply,
    broadcastTo_1b_ab_apply, Keepdims.broadcastTo_a1_ab_apply, Keepdims.shapeCast_a_a1_apply]
  rw [rowsum_apply x0, rowsum_apply]
  simp only [mulf_apply, subf_apply, divf_apply, broadcast_apply, Keepdims.broadcastTo_a1_ab_apply, Keepdims.shapeCast_a_a1_apply]
  rw [rowsum_apply x0]
  rfl

section Region
-- the buffer contents when the region is entered
variable (V : (c : Dev nD) → (b : Ref sig .tc) → Buf (Elt Ideal) ((c : Thread nD τ).loc b))

/-- The printed index maps over the grid: `x` and the result are at block `(t, 0)`, the other three at `(0, 0)`. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem t_lt (t : Fin cfg0.N) : t.val < 10 := by have := t.isLt; have hN : cfg0.N = 10 := N_0; omega

/-- Row `r` of block `t` of `x` is row `10000 t + r` of `x`. -/
theorem row_x (c : Dev nD) (t : Fin cfg0.N) (r : Fin 10000) :
    rowOf (n := 10000) (iblk0 V c 0 t : FVec Ideal S10000x128 .f32) r
      = rowOf (n := 100000) (V c main_arg0) ⟨10000 * t.val + r.val, by have := t_lt t; have := r.isLt; omega⟩ := by
  obtain ⟨e0, e1, -⟩ := idx_facts t
  funext k
  unfold rowOf iblk0
  rw [View.read_apply]
  show V c main_arg0 _ = V c main_arg0 _
  congr 1
  funext a
  apply Fin.ext
  match a with
  | ⟨0, _⟩ => show win0_0.index t 0 * 10000 + 1 * r.val = 10000 * t.val + r.val; rw [e0]; omega
  | ⟨1, _⟩ => show win0_0.index t 1 * 128 + 1 * k.val = k.val; rw [e1]; omega

/-- The `gamma` row's one block is the row. -/
theorem row_g (c : Dev nD) (t : Fin cfg0.N) :
    rowOf (n := 1) (iblk0 V c 1 t : FVec Ideal S1x128 .f32) 0 = rowOf (n := 1) (V c main_v0) 0 := by
  obtain ⟨-, -, e0, e1, -⟩ := idx_facts t
  funext k
  unfold rowOf iblk0
  rw [View.read_apply]
  show V c main_v0 _ = V c main_v0 _
  congr 1
  funext a
  apply Fin.ext
  match a with
  | ⟨0, _⟩ => show win0_1.index t 0 * 1 + 1 * 0 = 0; rw [e0]
  | ⟨1, _⟩ => show win0_1.index t 1 * 128 + 1 * k.val = k.val; rw [e1]; omega

/-- The `beta` row's one block is the row. -/
theorem row_b (c : Dev nD) (t : Fin cfg0.N) :
    rowOf (n := 1) (iblk0 V c 2 t : FVec Ideal S1x128 .f32) 0 = rowOf (n := 1) (V c main_v1) 0 := by
  obtain ⟨-, -, -, -, e0, e1, -⟩ := idx_facts t
  funext k
  unfold rowOf iblk0
  rw [View.read_apply]
  show V c main_v1 _ = V c main_v1 _
  congr 1
  funext a
  apply Fin.ext
  match a with
  | ⟨0, _⟩ => show win0_2.index t 0 * 1 + 1 * 0 = 0; rw [e0]
  | ⟨1, _⟩ => show win0_2.index t 1 * 128 + 1 * k.val = k.val; rw [e1]; omega

/-- The weights' one block is the matrix. -/
theorem row_w (c : Dev nD) (t : Fin cfg0.N) (q : Fin 128) :
    rowOf (n := 128) (iblk0 V c 3 t : FVec Ideal S128x128 .f32) q = rowOf (n := 128) (V c main_arg5) q := by
  obtain ⟨-, -, -, -, -, -, e0, e1, -⟩ := idx_facts t
  funext k
  unfold rowOf iblk0
  rw [View.read_apply]
  show V c main_arg5 _ = V c main_arg5 _
  congr 1
  funext a
  apply Fin.ext
  match a with
  | ⟨0, _⟩ => show win0_3.index t 0 * 128 + 1 * q.val = q.val; rw [e0]; omega
  | ⟨1, _⟩ => show win0_3.index t 1 * 128 + 1 * k.val = k.val; rw [e1]; omega

/-- What point `t` writes back is block `t` of the hidden features of the arrays as the region finds them. -/
theorem flushed_eq (c : Dev nD) (t : Fin cfg0.N) :
    (dat0 V c).flushed 4 t
      = ((cfg0.win 4).blk t).view.read (Elt Ideal)
          (hiddenRows (V c main_arg0) (V c main_v0) (V c main_v1) (V c main_arg5)) := by
  show (cfg0.win 4).cut (grid0.coords t) ((dat0 V c).after 4 t) = _
  rw [after0_4]
  unfold out0_4
  rw [View.canon_unit_zero hz]
  simp only [View.ld_unit_zero (S := S10000x128) hz, View.ld_unit_zero (S := S1x128) hz, View.ld_unit_zero (S := S128x128) hz]
  obtain ⟨-, -, -, -, -, -, -, -, e0, e1⟩ := idx_facts t
  funext j
  refine (pay_apply _ _ _ _ j).trans ?_
  have h0 : ((((cfg0.win 4).blk t).view.emb j) 0).val = 10000 * t.val + (j 0).val := by
    show win0_4.index t 0 * 10000 + 1 * (j 0).val = _; rw [e0]; omega
  have h1 : ((((cfg0.win 4).blk t).view.emb j) 1).val = (j 1).val := by
    show win0_4.index t 1 * 128 + 1 * (j 1).val = _; rw [e1]; omega
  rw [row_x V c t ⟨(j 0).val, idx2_lt0 (n0 := 10000) (n1 := 128) j⟩, row_g V c t, row_b V c t,
    row_w V c t ⟨(j 1).val, idx2_lt1 (n0 := 10000) (n1 := 128) j⟩, View.read_apply]
  have hr : (⟨10000 * t.val + (j 0).val, by have := t_lt t; have := idx2_lt0 (n0 := 10000) (n1 := 128) j; omega⟩ : Fin 100000)
      = ⟨((((cfg0.win 4).blk t).view.emb j) 0).val, idx2_lt0 _⟩ := Fin.ext h0.symm
  have hq : (⟨(j 1).val, idx2_lt1 (n0 := 10000) (n1 := 128) j⟩ : Fin 128)
      = ⟨((((cfg0.win 4).blk t).view.emb j) 1).val, idx2_lt1 _⟩ := Fin.ext h1.symm
  rw [hr, hq]
  rfl

/-- An index of the result is in point `t`'s block iff each coordinate is in the block's range on its axis. -/
theorem mem_blk (t : Fin cfg0.N) (i : S100000x128.Idx) :
    i ∈ ((cfg0.win 4).blk t).view.set ↔ ∀ a : Fin 2, win0_4.index t a * S10000x128.size a ≤ (i a).val ∧ (i a).val < win0_4.index t a * S10000x128.size a + S10000x128.size a := by
  show i ∈ ((View.whole main_v2).slice (win0_4.rect t)).set ↔ _
  rw [View.set_slice_whole, Rect.mem_set_unit]
  exact Iff.rfl

/-- The ten row blocks tile the result: row `n` is in block `n / 10000`. -/
theorem cover (i : S100000x128.Idx) :
    ∃ t : Fin cfg0.N, (cfg0.win 4).flush t = true ∧ i ∈ ((cfg0.win 4).blk t).view.set := by
  have hN : cfg0.N = 10 := N_0
  have hi0 : (i 0).val < 100000 := idx2_lt0 i
  have hi1 : (i 1).val < 128 := idx2_lt1 i
  refine ⟨⟨(i 0).val / 10000, by rw [hN]; omega⟩, flush0_4 _, ?_⟩
  rw [mem_blk]
  obtain ⟨-, -, -, -, -, -, -, -, e0, e1⟩ := idx_facts ⟨(i 0).val / 10000, by rw [hN]; omega⟩
  intro a
  match a with
  | ⟨0, _⟩ =>
    show win0_4.index _ 0 * 10000 ≤ (i 0).val ∧ (i 0).val < win0_4.index _ 0 * 10000 + 10000
    rw [e0]; show (i 0).val / 10000 * 10000 ≤ (i 0).val ∧ (i 0).val < (i 0).val / 10000 * 10000 + 10000; omega
  | ⟨1, _⟩ =>
    show win0_4.index _ 1 * 128 ≤ (i 1).val ∧ (i 1).val < win0_4.index _ 1 * 128 + 128
    rw [e1]; omega

/-- The hidden-feature array after the region: the specification's function of the arrays as the region finds them. -/
theorem final (c : Dev nD) :
    (dat0 V c).arrAt 4 cfg0.N = hiddenRows (V c main_arg0) (V c main_v0) (V c main_v1) (V c main_arg5) :=
  (dat0 V c).arrAt_eq_of_cover 4 _ (fun t _ => flushed_eq V c t) cover

end Region

end Cert.KernelIdeal.Linear

end
-- ==== Proof.HostPre.lean ====
/-
  The two host operations before the first region: `gamma` and `beta` reshaped from vectors of 128 to `[1, 128]` rows.
  Read off the fold of the operations over any buffer contents `W`; the arguments themselves are not written.
-/
import proofs.«180763_j17145509446019_2_alg».proof.Proof.Gen.KernelIdeal.Frame
import proofs.«180763_j17145509446019_2_alg».proof.Proof.Gen.ReferenceIdeal.Read
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.HostV

open Cert.KernelIdeal Cert.KernelIdeal.Gen

variable (W : Valuation τ sig (Elt Ideal))

/-! ## The two reshapes before the first region -/

theorem o0_gamma : StableHlo.after hostOps0 W (Proc.devRef .tc main_v0)
    = shapeCast S1x128 (W (Proc.devRef .tc main_arg3)) shapeCasts_S128_S1x128 := by
  after_results; rfl
theorem o0_beta : StableHlo.after hostOps0 W (Proc.devRef .tc main_v1)
    = shapeCast S1x128 (W (Proc.devRef .tc main_arg4)) shapeCasts_S128_S1x128 := by
  after_results; rfl
theorem o0_arg0 : StableHlo.after hostOps0 W (Proc.devRef .tc main_arg0) = W (Proc.devRef .tc main_arg0) := by
  after_results
theorem o0_arg1 : StableHlo.after hostOps0 W (Proc.devRef .tc main_arg1) = W (Proc.devRef .tc main_arg1) := by
  after_results
theorem o0_arg2 : StableHlo.after hostOps0 W (Proc.devRef .tc main_arg2) = W (Proc.devRef .tc main_arg2) := by
  after_results
theorem o0_arg5 : StableHlo.after hostOps0 W (Proc.devRef .tc main_arg5) = W (Proc.devRef .tc main_arg5) := by
  after_results
theorem o0_arg6 : StableHlo.after hostOps0 W (Proc.devRef .tc main_arg6) = W (Proc.devRef .tc main_arg6) := by
  after_results

end Cert.KernelIdeal.HostV

end
-- ==== Proof.HostEdges.lean ====
/-
  The first stretch of host operations after the first region, read off its fold over any buffer contents `W`: the
  edge list sliced into sources and destinations with the self loops appended (an iota), the edge weights with unit
  weights appended, the degree (a segment sum over the destinations), and the two arms of the factor — `deg > 0` and
  `rsqrt(deg)`. They are the operations the reference applies to the same arguments, so each buffer is stated at the
  reference's stage of that name. The hidden features and the bias are not written.
-/
import proofs.«180763_j17145509446019_2_alg».proof.Proof.Gen.KernelIdeal.Frame
import proofs.«180763_j17145509446019_2_alg».proof.Proof.Gen.ReferenceIdeal.Read
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.HostV

open Cert.KernelIdeal Cert.KernelIdeal.Gen

variable (W : Valuation τ sig (Elt Ideal))

/-! ## The edge lists with the self loops, the degree, and the two arms of the factor -/

theorem o1_row : StableHlo.after hostOps1 W (Proc.devRef .tc main_v8)
    = Cert.ReferenceIdeal.Read.val_main_v32 (F := Ideal) (W (Proc.devRef .tc main_arg1)) := by
  after_results; rfl
theorem o1_col : StableHlo.after hostOps1 W (Proc.devRef .tc main_v9)
    = Cert.ReferenceIdeal.Read.val_main_v33 (F := Ideal) (W (Proc.devRef .tc main_arg1)) := by
  after_results; rfl
theorem o1_ew : StableHlo.after hostOps1 W (Proc.devRef .tc main_v11)
    = Cert.ReferenceIdeal.Read.val_main_v35 (F := Ideal) (W (Proc.devRef .tc main_arg2)) := by
  after_results; rfl
theorem o1_pos : StableHlo.after hostOps1 W (Proc.devRef .tc main_v16)
    = Cert.ReferenceIdeal.Read.val_main_v40 (F := Ideal) (W (Proc.devRef .tc main_arg1)) (W (Proc.devRef .tc main_arg2)) := by
  after_results; rfl
theorem o1_rsqrt : StableHlo.after hostOps1 W (Proc.devRef .tc main_v17)
    = Cert.ReferenceIdeal.Read.val_main_v41 (F := Ideal) (W (Proc.devRef .tc main_arg1)) (W (Proc.devRef .tc main_arg2)) := by
  after_results; rfl
theorem o1_zero : StableHlo.after hostOps1 W (Proc.devRef .tc main_cst_2) = Cert.ReferenceIdeal.Read.val_main_cst_7 (F := Ideal) := by
  after_results; rfl
theorem o1_hidden : StableHlo.after hostOps1 W (Proc.devRef .tc main_v2) = W (Proc.devRef .tc main_v2) := by
  after_results
theorem o1_arg6 : StableHlo.after hostOps1 W (Proc.devRef .tc main_arg6) = W (Proc.devRef .tc main_arg6) := by
  after_results

end Cert.KernelIdeal.HostV

end
-- ==== Proof.HostFactor.lean ====
/-
  The factor `where(deg > 0, rsqrt(deg), 0)`: the three operations of jnp.where's outlined function, read off their
  fold over any buffer contents `W` that hold the reference's two arms and zero. Nothing else is written.
-/
import proofs.«180763_j17145509446019_2_alg».proof.Proof.Gen.KernelIdeal.Frame
import proofs.«180763_j17145509446019_2_alg».proof.Proof.Gen.ReferenceIdeal.Read
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.HostV

open Cert.KernelIdeal Cert.KernelIdeal.Gen

variable (W : Valuation τ sig (Elt Ideal))

/-! ## The factor -/

/-- The three operations at any float instance: the selection between the two arms and the broadcast zero. -/
theorem o11_select {F : FTy → Type} [FloatOps F] (W' : Valuation τ sig (Elt F)) :
    StableHlo.after hostOps1_1 W' (Proc.devRef .tc main_v18)
      = (select (W' (Proc.devRef .tc main_v16)) (W' (Proc.devRef .tc main_v17))
          (broadcastInDim S100000 ![] bcast_S_S100000 (W' (Proc.devRef .tc main_cst_2))) : (⟨S100000, .f32⟩ : BufTy).Contents (Elt F)) := by
  after_results
  rfl

theorem o11_dinv (x1 : (⟨S2x1600000, .i32⟩ : BufTy).Contents (Elt Ideal)) (x2 : (⟨S1600000, .f32⟩ : BufTy).Contents (Elt Ideal))
    (h16 : W (Proc.devRef .tc main_v16) = Cert.ReferenceIdeal.Read.val_main_v40 (F := Ideal) x1 x2)
    (h17 : W (Proc.devRef .tc main_v17) = Cert.ReferenceIdeal.Read.val_main_v41 (F := Ideal) x1 x2)
    (hc : W (Proc.devRef .tc main_cst_2) = Cert.ReferenceIdeal.Read.val_main_cst_7 (F := Ideal)) :
    StableHlo.after hostOps1_1 W (Proc.devRef .tc main_v18) = Cert.ReferenceIdeal.Read.val_main_v42 (F := Ideal) x1 x2 := by
  refine (o11_select W).trans ?_
  rw [h16, h17, hc]
  rfl
theorem o11_row : StableHlo.after hostOps1_1 W (Proc.devRef .tc main_v8) = W (Proc.devRef .tc main_v8) := by
  after_results
theorem o11_col : StableHlo.after hostOps1_1 W (Proc.devRef .tc main_v9) = W (Proc.devRef .tc main_v9) := by
  after_results
theorem o11_ew : StableHlo.after hostOps1_1 W (Proc.devRef .tc main_v11) = W (Proc.devRef .tc main_v11) := by
  after_results
theorem o11_hidden : StableHlo.after hostOps1_1 W (Proc.devRef .tc main_v2) = W (Proc.devRef .tc main_v2) := by
  after_results
theorem o11_arg6 : StableHlo.after hostOps1_1 W (Proc.devRef .tc main_arg6) = W (Proc.devRef .tc main_arg6) := by
  after_results

end Cert.KernelIdeal.HostV

end
-- ==== Proof.LibScatterRows.lean ====
/-
  General lemmas: the "row" scatter's result index, and two facts about the accumulating scatter over the extended reals.

  What a segment sum `segment_sum(rows, ids, num_segments = B)` of rows `[N, C]` at an integer array `ids : [N]` lowers to:
  `stablehlo.scatter` with an `add` body, update_window_dims `[1]`, inserted_window_dims `[0]`,
  scatter_dims_to_operand_dims `[0]` and index_vector_dim 1 over the indices as `[N, 1]`. Update element `(n, c)` lands on
  the operand's element `(ids[n, 0], c)`, the index read as a signed integer and NOT clamped: when it is outside
  `[0, B)` the update is dropped.
-/
import Idealize.ShloMosaic.Lib.ValueIdx
import Idealize.ShloMosaic.PureOps.Contract

noncomputable section

open scoped BigOperators

namespace Cert.Lib.ScatterRows

open Idealize.ShloMosaic Idealize.ShloMosaic.ValueIdx

/-- The dimension numbers of a row scatter: operand `[B, C]`, scatter indices `[N, 1]`, updates `[N, C]`; the operand's
    axis 0 is indexed (an inserted window axis), the updates' axis 1 is the window and goes to the operand's axis 1.
    The conditions `wf` are decided on a program's literal shapes. -/
abbrev rowsScatter (B C N : Nat) (wf : ScatterDims.WF ⟨2, ![B, C]⟩ ⟨2, ![N, 1]⟩ ⟨2, ![N, C]⟩ [1] [0] [0] 1) :
    ScatterDims ⟨2, ![B, C]⟩ ⟨2, ![N, 1]⟩ ⟨2, ![N, C]⟩ where
  updateWindowDims := [1]
  insertedWindowDims := [0]
  scatterDimsToOperandDims := [0]
  indexVectorDim := 1
  wf := wf

/-- The scatter-indices index `[n, 0]` of the update index `(n, c)`. -/
abbrev rowIdx {N C : Nat} (j : (⟨2, ![N, C]⟩ : Shape).Idx) : (⟨2, ![N, 1]⟩ : Shape).Idx :=
  fun a => match a with | ⟨0, _⟩ => ⟨(j 0).val, idx2_lt0 j⟩ | ⟨1, _⟩ => ⟨0, Nat.one_pos⟩

section Rows
variable {B C N w : Nat} (wf : ScatterDims.WF ⟨2, ![B, C]⟩ ⟨2, ![N, 1]⟩ ⟨2, ![N, C]⟩ [1] [0] [0] 1)
  (j : (⟨2, ![N, C]⟩ : Shape).Idx) (idx : IVec ⟨2, ![N, 1]⟩ w)

/-- On the operand's axis 0 the window starts at the scatter index `ids[n, 0]`, read signed. -/
theorem start_zero : (rowsScatter B C N wf).start j idx 0 = (idx (rowIdx j)).toInt := by
  unfold ScatterDims.start
  rw [dif_pos (show (0 : Fin 2) ∈ (rowsScatter B C N wf).scatterDimsToOperandDims from List.mem_singleton.mpr rfl)]
  have hsi : (rowsScatter B C N wf).siIdx j ⟨List.idxOf (0 : Fin 2) (rowsScatter B C N wf).scatterDimsToOperandDims,
      List.idxOf_lt_length_iff.2 (List.mem_singleton.mpr rfl)⟩ = rowIdx j := by
    funext b; refine Fin.ext ?_
    match b with
    | ⟨0, _⟩ => rfl
    | ⟨1, _⟩ => rfl
  rw [hsi]

/-- On the operand's axis 1, which the scatter indices do not name, the window starts at 0. -/
theorem start_one : (rowsScatter B C N wf).start j idx 1 = 0 := by
  unfold ScatterDims.start
  rw [dif_neg (show (1 : Fin 2) ∉ (rowsScatter B C N wf).scatterDimsToOperandDims from
    (by decide : (1 : Fin 2) ∉ ([0] : List (Fin 2))))]

/-- The operand's axis 0 is an inserted window axis: its window coordinate is 0. -/
theorem window_zero : (rowsScatter B C N wf).window j 0 = 0 := by
  unfold ScatterDims.window
  rw [dif_neg (show (0 : Fin 2) ∉ (rowsScatter B C N wf).sKept from
    (by decide : (0 : Fin 2) ∉ (List.finRange 2).filter (· ∉ ([0] : List (Fin 2)))))]

/-- On the operand's axis 1 the window coordinate is the update's column. -/
theorem window_one : (rowsScatter B C N wf).window j 1 = (j 1).val := by
  unfold ScatterDims.window
  rw [dif_pos (show (1 : Fin 2) ∈ (rowsScatter B C N wf).sKept from
    (by decide : (1 : Fin 2) ∈ (List.finRange 2).filter (· ∉ ([0] : List (Fin 2)))))]
  rfl

/-- WHERE AN UPDATE OF THE ROW SCATTER LANDS: update `(n, c)` lands on operand element `i` exactly when the scatter
    index `ids[n, 0]`, read signed, is in `[0, B)`, is `i`'s row, and `c` is `i`'s column. -/
theorem resultIdx?_rows_iff (i : (⟨2, ![B, C]⟩ : Shape).Idx) :
    (rowsScatter B C N wf).resultIdx? j idx = some i ↔
      0 ≤ (idx (rowIdx j)).toInt ∧ (idx (rowIdx j)).toInt < B ∧ ((i 0).val : Int) = (idx (rowIdx j)).toInt
        ∧ (i 1).val = (j 1).val := by
  have hi0 : (i 0).val < B := idx2_lt0 i
  have hj1 : (j 1).val < C := idx2_lt1 j
  unfold ScatterDims.resultIdx?
  constructor
  · intro h
    split at h
    · rename_i hc
      have hi := Option.some.inj h
      have e0 : ((i 0).val : Int) = (idx (rowIdx j)).toInt := by
        have h0 := hc 0
        rw [start_zero, window_zero] at h0
        rw [← hi]
        show (((rowsScatter B C N wf).start j idx 0 + ((rowsScatter B C N wf).window j 0 : Nat)).toNat : Int) = _
        rw [start_zero, window_zero]
        omega
      have e1 : (i 1).val = (j 1).val := by
        rw [← hi]
        show ((rowsScatter B C N wf).start j idx 1 + ((rowsScatter B C N wf).window j 1 : Nat)).toNat = _
        rw [start_one, window_one]
        omega
      refine ⟨by omega, by omega, e0, e1⟩
    · exact absurd h (by simp)
  · rintro ⟨h0, hlt, e0, e1⟩
    have hc : ∀ a : Fin 2, 0 ≤ (rowsScatter B C N wf).start j idx a + ((rowsScatter B C N wf).window j a : Nat) ∧
        (rowsScatter B C N wf).start j idx a + ((rowsScatter B C N wf).window j a : Nat)
          < ((⟨2, ![B, C]⟩ : Shape).size a : Nat) := by
      intro a
      match a with
      | ⟨0, _⟩ =>
        show 0 ≤ (rowsScatter B C N wf).start j idx 0 + ((rowsScatter B C N wf).window j 0 : Nat) ∧
          (rowsScatter B C N wf).start j idx 0 + ((rowsScatter B C N wf).window j 0 : Nat) < (B : Int)
        rw [start_zero, window_zero]; omega
      | ⟨1, _⟩ =>
        show 0 ≤ (rowsScatter B C N wf).start j idx 1 + ((rowsScatter B C N wf).window j 1 : Nat) ∧
          (rowsScatter B C N wf).start j idx 1 + ((rowsScatter B C N wf).window j 1 : Nat) < (C : Int)
        rw [start_one, window_one]; omega
    rw [dif_pos hc]
    congr 1
    funext a
    refine Fin.ext ?_
    match a with
    | ⟨0, _⟩ =>
      show ((rowsScatter B C N wf).start j idx 0 + ((rowsScatter B C N wf).window j 0 : Nat)).toNat = (i 0).val
      rw [start_zero, window_zero]; omega
    | ⟨1, _⟩ =>
      show ((rowsScatter B C N wf).start j idx 1 + ((rowsScatter B C N wf).window j 1 : Nat)).toNat = (i 1).val
      rw [start_one, window_one]; omega

/-- An update `(n, c)` that is not dropped has its scatter index `ids[n, 0]`, read signed, in `[0, B)`, and lands on
    that row, at column `c`. -/
theorem resultIdx?_rows (i : (⟨2, ![B, C]⟩ : Shape).Idx) (h : (rowsScatter B C N wf).resultIdx? j idx = some i) :
    0 ≤ (idx (rowIdx j)).toInt ∧ (idx (rowIdx j)).toInt < B ∧ ((i 0).val : Int) = (idx (rowIdx j)).toInt
      ∧ (i 1).val = (j 1).val :=
  (resultIdx?_rows_iff wf j idx i).mp h

end Rows

/-! ## The accumulating scatter over the extended reals, for any dimension numbers -/

section Add
variable {s si u : Shape} {φ : FTy} {w : Nat} (d : ScatterDims s si u)

/-- The accumulating scatter at an index: the operand's element plus the sum of the updates landing on it. -/
theorem scatterAdd_apply (x : FVec Ideal s φ) (idx : IVec si w) (upd : FVec Ideal u φ) (i : s.Idx) :
    Host.scatterAdd (F := Ideal) d x idx upd i = Ideal.hostScatterAdd d x idx upd i := rfl

/-- The accumulating scatter reads only the updates that are not dropped: two update arrays that agree on every
    update index landing inside the operand give the same result. -/
theorem hostScatterAdd_congr (x : FVec Ideal s φ) (idx : IVec si w) (upd upd' : FVec Ideal u φ)
    (h : ∀ j, (∃ i, d.resultIdx? j idx = some i) → upd j = upd' j) :
    Host.scatterAdd (F := Ideal) d x idx upd = Host.scatterAdd (F := Ideal) d x idx upd' := by
  funext i
  rw [scatterAdd_apply, scatterAdd_apply]
  unfold Ideal.hostScatterAdd
  congr 1
  exact Finset.sum_congr rfl fun j hj => h j ⟨i, (Finset.mem_filter.mp hj).2⟩

/-- An element of the accumulating scatter is positive when the operand's element is nonnegative, every update landing
    on it is nonnegative, and one of them is positive. (The extended reals are an ordered additive monoid: one term of
    a sum of nonnegative terms is below the sum.) -/
theorem hostScatterAdd_pos' (x : FVec Ideal s φ) (idx : IVec si w) (upd : FVec Ideal u φ) (i : s.Idx)
    (hx : 0 ≤ x i) (hupd : ∀ j, d.resultIdx? j idx = some i → 0 ≤ upd j)
    (j₀ : u.Idx) (hj₀ : d.resultIdx? j₀ idx = some i) (hpos : 0 < upd j₀) :
    0 < Host.scatterAdd (F := Ideal) d x idx upd i := by
  rw [scatterAdd_apply]
  unfold Ideal.hostScatterAdd
  have hle : upd j₀ ≤ ∑ j ∈ Finset.univ.filter (fun j => d.resultIdx? j idx = some i), upd j :=
    Finset.single_le_sum (f := upd) (fun j hj => hupd j (Finset.mem_filter.mp hj).2)
      (Finset.mem_filter.mpr ⟨Finset.mem_univ _, hj₀⟩)
  exact lt_of_lt_of_le hpos (le_trans hle (le_add_of_nonneg_left hx))

/-- An element of the accumulating scatter is positive when the operand's element is nonnegative, every update is
    positive, and some update lands on it. -/
theorem hostScatterAdd_pos (x : FVec Ideal s φ) (idx : IVec si w) (upd : FVec Ideal u φ) (i : s.Idx)
    (hx : 0 ≤ x i) (hupd : ∀ j, 0 < upd j) (j₀ : u.Idx) (hj₀ : d.resultIdx? j₀ idx = some i) :
    0 < Host.scatterAdd (F := Ideal) d x idx upd i :=
  hostScatterAdd_pos' d x idx upd i hx (fun j _ => (hupd j).le) j₀ hj₀ (hupd j₀)

end Add

end Cert.Lib.ScatterRows

end
-- ==== Proof.LibGatherVec.lean ====
/-
  A general lemma: the gather of a vector's entries read at an index.

  What `v[ids]` of a vector `v : [B]` at an integer array `ids : [N]` lowers to: `stablehlo.gather` with no offset
  axes, collapsed_slice_dims `[0]`, start_index_map `[0]`, slice_sizes `[1]` and index_vector_dim 1 over the indices
  as `[N, 1]`. Result element `n` is the vector's entry `r`, where `r` is the start index `ids[n, 0]` read as a
  signed integer and clamped into `[0, B − 1]`.
-/
import Idealize.ShloMosaic.Lib.ValueIdx

noncomputable section

namespace Cert.Lib.GatherVec

open Idealize.ShloMosaic Idealize.ShloMosaic.ValueIdx

variable {α : Type}

/-- The dimension numbers of a vector gather: operand `[B]`, start indices `[N, 1]`, result `[N]`; the operand's one
    axis is collapsed and indexed. The conditions `wf` are decided on a program's literal shapes. -/
abbrev vecDims (B N : Nat)
    (wf : GatherDims.WF ⟨1, ![B]⟩ ⟨2, ![N, 1]⟩ ⟨1, ![N]⟩ [] [0] [] [0] [] 1 ![1]) :
    GatherDims ⟨1, ![B]⟩ ⟨2, ![N, 1]⟩ ⟨1, ![N]⟩ where
  offsetDims := []
  collapsedSliceDims := [0]
  operandBatchingDims := []
  startIndicesBatchingDims := []
  startIndexMap := [0]
  indexVectorDim := 1
  sliceSizes := ![1]
  wf := wf

/-- The start-indices index `[n, 0]` of the result index `n`. -/
abbrev vecIdx {N : Nat} (y : (⟨1, ![N]⟩ : Shape).Idx) : (⟨2, ![N, 1]⟩ : Shape).Idx :=
  fun a => match a with | ⟨0, _⟩ => ⟨(y 0).val, (y 0).isLt⟩ | ⟨1, _⟩ => ⟨0, Nat.one_pos⟩

/-- THE VECTOR GATHER READ AT `n`: the operand at `ids[n, 0]`, read signed and clamped into `[0, B − 1]`. -/
theorem gather_vec_apply {B N w : Nat} (hB : 0 < B)
    (wf : GatherDims.WF ⟨1, ![B]⟩ ⟨2, ![N, 1]⟩ ⟨1, ![N]⟩ [] [0] [] [0] [] 1 ![1])
    (x : (⟨1, ![B]⟩ : Shape).Idx → α) (idx : IVec ⟨2, ![N, 1]⟩ w) (y : (⟨1, ![N]⟩ : Shape).Idx) :
    Host.gather (vecDims B N wf) x idx y
      = x (ix1 ⟨min (idx (vecIdx y)).toInt.toNat (B - 1), by omega⟩) := by
  unfold Host.gather
  congr 1
  funext a
  refine Fin.ext ?_
  match a with
  | ⟨0, _⟩ =>
    show (vecDims B N wf).start y idx 0 + (vecDims B N wf).batchCoord y 0 + (vecDims B N wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecDims B N wf).startIndexMap from List.mem_singleton.mpr rfl)]
    have hsi : (vecDims B N wf).siIdx y ⟨List.idxOf (0 : Fin 1) (vecDims B N wf).startIndexMap,
        List.idxOf_lt_length_iff.2 (List.mem_singleton.mpr rfl)⟩ = vecIdx y := by
      funext b; refine Fin.ext ?_
      match b with
      | ⟨0, _⟩ => rfl
      | ⟨1, _⟩ => rfl
    rw [hsi]
    rfl

/-- The vector gather with the start index inside the vector: no clamping, the entry read is `ids[n, 0]` itself. -/
theorem gather_vec_apply_of_inBounds {B N w : Nat}
    (wf : GatherDims.WF ⟨1, ![B]⟩ ⟨2, ![N, 1]⟩ ⟨1, ![N]⟩ [] [0] [] [0] [] 1 ![1])
    (x : (⟨1, ![B]⟩ : Shape).Idx → α) (idx : IVec ⟨2, ![N, 1]⟩ w) (y : (⟨1, ![N]⟩ : Shape).Idx)
    (r : Fin B) (hr : (idx (vecIdx y)).toInt = (r.val : Int)) :
    Host.gather (vecDims B N wf) x idx y = x (ix1 r) := by
  rw [gather_vec_apply (by have := r.isLt; omega) wf x idx y]
  congr 1
  funext a
  refine Fin.ext ?_
  match a with
  | ⟨0, _⟩ =>
    show min (idx (vecIdx y)).toInt.toNat (B - 1) = r.val
    have := r.isLt
    omega

end Cert.Lib.GatherVec

end
-- ==== Proof.LibSegmentScale.lean ====
/-
  General lemmas: a nonnegative real factor taken out of a sum of extended reals, and out of an accumulating scatter.

  On the extended reals multiplication does not distribute over addition in general (`⊤ + ⊥` is `⊥`), but it does
  when the common factor is a nonnegative real: `(y + z) * d = y * d + z * d` for `0 ≤ d < ⊤`, whatever `y` and `z`
  are. So such a factor moves out of any finite sum, and a factor that depends only on the element an update lands on
  moves out of an accumulating scatter into a zero operand (a segment sum): scaling every update by the factor of its
  segment is scaling the segment's sum.
-/
import Mathlib.Data.EReal.Operations
import Idealize.ShloMosaic.PureOps.Contract
import Idealize.ShloMosaic.PureOps.Ideal

noncomputable section

open scoped BigOperators

namespace Cert.Lib.SegmentScale

open Idealize.ShloMosaic

/-- A nonnegative real factor moves out of a finite sum of extended reals. -/
theorem sum_mul_of_nonneg_of_ne_top {ι : Type} (s : Finset ι) (a : ι → EReal) {d : EReal} (h0 : 0 ≤ d) (ht : d ≠ ⊤) :
    (∑ j ∈ s, a j) * d = ∑ j ∈ s, a j * d := by
  classical
  induction s using Finset.induction_on with
  | empty => simp
  | insert j s hj ih =>
    rw [Finset.sum_insert hj, Finset.sum_insert hj, EReal.right_distrib_of_nonneg_of_ne_top h0 ht, ih]

section Add
variable {s si u : Shape} {φ : FTy} {w : Nat} (d : ScatterDims s si u)

/-- The accumulating scatter into a zero operand, with every update scaled by a nonnegative real factor `f i` that
    depends only on the element `i` the update lands on, is the scatter of the unscaled updates with element `i`
    scaled by `f i`. Updates that are dropped may be scaled by anything. -/
theorem hostScatterAdd_mul (x : FVec Ideal s φ) (idx : IVec si w) (upd upd' : FVec Ideal u φ) (f : s.Idx → EReal)
    (hx : ∀ i, x i = (0 : EReal)) (hf0 : ∀ i, 0 ≤ f i) (hft : ∀ i, f i ≠ ⊤)
    (h : ∀ j i, d.resultIdx? j idx = some i → (upd' j : EReal) = upd j * f i) (i : s.Idx) :
    (Host.scatterAdd (F := Ideal) d x idx upd' i : EReal) = Host.scatterAdd (F := Ideal) d x idx upd i * f i := by
  show Ideal.hostScatterAdd d x idx upd' i = Ideal.hostScatterAdd d x idx upd i * f i
  unfold Ideal.hostScatterAdd
  rw [hx i, zero_add, zero_add, sum_mul_of_nonneg_of_ne_top _ _ (hf0 i) (hft i)]
  exact Finset.sum_congr rfl fun j hj => h j i (Finset.mem_filter.mp hj).2

end Add

end Cert.Lib.SegmentScale

end
-- ==== Proof.Tail.lean ====
/-
  The aggregation: the destination's factor leaves the segment sum.

  Both programs append the self loops, take the degree `deg = segment_sum(ew, col)`, the factor
  `dinv = where(deg > 0, rsqrt(deg), 0)`, gather the hidden rows of the sources and sum the weighted messages per
  destination. The reference weights edge `e` by `dinv[row e] · ew e · dinv[col e]`; the kernel weights it by
  `dinv[row e] · ew e` and multiplies destination `n`'s sum by `dinv[n]` afterwards. An update of the segment sum lands
  on row `n` exactly when `col e`, read signed, is `n` (an id outside `[0, 100000)` is dropped), and then the gather
  `dinv[col e]` — which wraps a negative id and clamps — reads entry `n` too. The factor is `0` or the reciprocal square
  root of a positive extended real, a nonnegative real in every case (at `⊤` it is `0`), and a nonnegative real factor
  distributes over any sum of extended reals. No finiteness of the inputs is used.
-/
import proofs.«180763_j17145509446019_2_alg».proof.Proof.Gen.ReferenceIdeal.Read
import proofs.«180763_j17145509446019_2_alg».proof.Proof.LibScatterRows
import proofs.«180763_j17145509446019_2_alg».proof.Proof.LibGatherVec
import proofs.«180763_j17145509446019_2_alg».proof.Proof.LibSegmentScale
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx

namespace Cert.ReferenceIdeal.Tail

open Cert.ReferenceIdeal Cert.ReferenceIdeal.Gen Cert.ReferenceIdeal.Read

/-! ## The pieces both programs are built from -/

/-- Edge ids as the `[M, 1]` index array a scatter reads: read signed, not wrapped. -/
def rawIdx (r : IVec S1700000 32) : IVec S1700000x1 32 :=
  broadcastInDim S1700000x1 ![0] bcast_S1700000_S1700000x1_0 r

/-- Edge ids as the index array a gather reads: a negative id wrapped by 100000 first (numpy indexing). -/
def normIdx (r : IVec S1700000 32) : IVec S1700000x1 32 :=
  broadcastInDim S1700000x1 ![0] bcast_S1700000_S1700000x1_0
    (select (cmpi .slt r (broadcastInDim S1700000 ![] bcast_S_S1700000 (constantI S_ 32 0#32)))
      (addi r (broadcastInDim S1700000 ![] bcast_S_S1700000 (constantI S_ 32 100000#32))) r)

/-- A per-edge weight spread along the 128 features. -/
def spread (v : FVec Ideal S1700000 .f32) : FVec Ideal S1700000x128 .f32 :=
  broadcastInDim S1700000x128 ![0, 1] bcast_S1700000x1_S1700000x128_0_1
    (broadcastInDim S1700000x1 ![0] bcast_S1700000_S1700000x1_0 v)

/-- The zero array a segment sum accumulates into. -/
def zeros2 : FVec Ideal S100000x128 .f32 :=
  broadcastInDim S100000x128 ![] bcast_S_S100000x128 (constant S_ .f32 0x00000000#32)

/-- Per-destination sums of per-edge rows. -/
def segsum (idx : IVec S1700000x1 32) (u : FVec Ideal S1700000x128 .f32) : FVec Ideal S100000x128 .f32 :=
  Host.scatterAdd scatter_S100000x128_S1700000x1_S1700000x128_1_0_0_1 zeros2 idx u

/-- A vector's entries at the (wrapped, clamped) ids. -/
def gatherVec (d : FVec Ideal S100000 .f32) (idx : IVec S1700000x1 32) : FVec Ideal S1700000 .f32 :=
  Host.gather gather_S100000_S1700000x1_S1700000_n_0_n_n_0_1_1 d idx

/-- A matrix's rows at the (wrapped, clamped) ids. -/
def gatherRows (h : FVec Ideal S100000x128 .f32) (idx : IVec S1700000x1 32) : FVec Ideal S1700000x128 .f32 :=
  Host.gather gather_S100000x128_S1700000x1_S1700000x128_1_0_n_n_0_1_1128 h idx

/-- The kernel's aggregate: messages weighted by the source's factor and the edge weight. -/
def aggK (h : FVec Ideal S100000x128 .f32) (row col : IVec S1700000 32) (ew : FVec Ideal S1700000 .f32)
    (dinv : FVec Ideal S100000 .f32) : FVec Ideal S100000x128 .f32 :=
  segsum (rawIdx col) (mulf (gatherRows h (normIdx row)) (spread (mulf (gatherVec dinv (normIdx row)) ew)))

/-- The reference's aggregate: messages weighted by both factors and the edge weight. -/
def aggR (h : FVec Ideal S100000x128 .f32) (row col : IVec S1700000 32) (ew : FVec Ideal S1700000 .f32)
    (dinv : FVec Ideal S100000 .f32) : FVec Ideal S100000x128 .f32 :=
  segsum (rawIdx col) (mulf (gatherRows h (normIdx row))
    (spread (mulf (mulf (gatherVec dinv (normIdx row)) ew) (gatherVec dinv (normIdx col)))))

/-! ## The pieces read at an index -/

theorem rawIdx_apply (r : IVec S1700000 32) (i : S1700000x1.Idx) :
    rawIdx r i = r (ix1 ⟨(i 0).val, idx2_lt0 i⟩) := by
  unfold rawIdx
  exact broadcastInDim_apply _ bcast_S1700000_S1700000x1_0 r i _ (fun a => match a with
    | ⟨0, _⟩ => by show (i 0).val = if (1700000 : Nat) = 1 then 0 else (i 0).val; rw [if_neg (by decide)])

theorem normIdx_apply (r : IVec S1700000 32) (i : S1700000x1.Idx) :
    normIdx r i = Scalar.select (IntOp.cmpi .slt (r (ix1 ⟨(i 0).val, idx2_lt0 i⟩)) 0#32)
      (IntOp.addi (r (ix1 ⟨(i 0).val, idx2_lt0 i⟩)) 100000#32) (r (ix1 ⟨(i 0).val, idx2_lt0 i⟩)) := by
  unfold normIdx
  refine (broadcastInDim_apply _ bcast_S1700000_S1700000x1_0 _ i (ix1 ⟨(i 0).val, idx2_lt0 i⟩) (fun a => match a with
    | ⟨0, _⟩ => by show (i 0).val = if (1700000 : Nat) = 1 then 0 else (i 0).val; rw [if_neg (by decide)])).trans ?_
  rw [select_apply]
  have hb : ∀ (b : BitVec 32) (e : S1700000.Idx),
      broadcastInDim S1700000 ![] bcast_S_S1700000 (constantI S_ 32 b) e = b := fun b e =>
    broadcastInDim_apply _ bcast_S_S1700000 (constantI S_ 32 b) e ix0 (fun a => a.elim0)
  show Scalar.select (IntOp.cmpi .slt _ (broadcastInDim S1700000 ![] bcast_S_S1700000 (constantI S_ 32 0#32) _))
    (IntOp.addi _ (broadcastInDim S1700000 ![] bcast_S_S1700000 (constantI S_ 32 100000#32) _)) _ = _
  rw [hb, hb]

theorem spread_apply (v : FVec Ideal S1700000 .f32) (j : S1700000x128.Idx) :
    spread v j = v (ix1 ⟨(j 0).val, idx2_lt0 j⟩) := by
  unfold spread
  refine (broadcastInDim_apply _ bcast_S1700000x1_S1700000x128_0_1 _ j (ix2 ⟨(j 0).val, idx2_lt0 j⟩ (0 : Fin 1)) (fun a => match a with
    | ⟨0, _⟩ => by show (j 0).val = if (1700000 : Nat) = 1 then 0 else (j 0).val; rw [if_neg (by decide)]
    | ⟨1, _⟩ => by show 0 = if (1 : Nat) = 1 then 0 else (j 1).val; rw [if_pos rfl])).trans ?_
  exact broadcastInDim_apply _ bcast_S1700000_S1700000x1_0 v _ _ (fun a => match a with
    | ⟨0, _⟩ => by show (j 0).val = if (1700000 : Nat) = 1 then 0 else (j 0).val; rw [if_neg (by decide)])

theorem zeros2_apply (i : S100000x128.Idx) : (zeros2 i : EReal) = 0 := by
  unfold zeros2
  refine (broadcastInDim_apply _ bcast_S_S100000x128 (constant (F := Ideal) S_ .f32 0x00000000#32) i ix0 (fun a => a.elim0)).trans ?_
  exact Ideal.ofBits_zero_f32

/-! ## Where a message lands, and what the destination's gather reads there -/

/-- A nonnegative id is not wrapped. -/
theorem select_wrap_of_nonneg (v : BitVec 32) (h : 0 ≤ v.toInt) :
    Scalar.select (IntOp.cmpi .slt v 0#32) (IntOp.addi v 100000#32) v = v := by
  have hs : v.slt 0#32 = false := by
    rw [BitVec.slt_eq_decide]
    simpa using h
  unfold Scalar.select IntOp.cmpi
  simp [hs]

/-- THE DESTINATION'S FACTOR WHERE A MESSAGE LANDS: if edge `j`'s update lands on element `i` of the segment sum
    over `col`, the gather of `dinv` at the wrapped `col` reads, at that edge, `dinv` at `i`'s row. -/
theorem dest_factor (col : IVec S1700000 32) (dinv : FVec Ideal S100000 .f32) (j : S1700000x128.Idx) (i : S100000x128.Idx)
    (h : scatter_S100000x128_S1700000x1_S1700000x128_1_0_0_1.resultIdx? j (rawIdx col) = some i) :
    gatherVec dinv (normIdx col) (ix1 ⟨(j 0).val, idx2_lt0 j⟩) = dinv (ix1 ⟨(i 0).val, idx2_lt0 i⟩) := by
  obtain ⟨h0, hlt, e0, -⟩ := Cert.Lib.ScatterRows.resultIdx?_rows (B := 100000) (C := 128) (N := 1700000)
    scatter_S100000x128_S1700000x1_S1700000x128_1_0_0_1_wf j (rawIdx col) i h
  rw [rawIdx_apply] at h0 hlt e0
  have hv : col (ix1 ⟨(j 0).val, idx2_lt0 j⟩) = col (ix1 ⟨((Cert.Lib.ScatterRows.rowIdx j) 0).val, idx2_lt0 _⟩) := rfl
  rw [← hv] at h0 hlt e0
  unfold gatherVec
  refine Cert.Lib.GatherVec.gather_vec_apply_of_inBounds (B := 100000) (N := 1700000)
    gather_S100000_S1700000x1_S1700000_n_0_n_n_0_1_1_wf dinv (normIdx col) _ ⟨(i 0).val, idx2_lt0 i⟩ ?_
  rw [normIdx_apply]
  show (Scalar.select (IntOp.cmpi .slt (col (ix1 ⟨(j 0).val, idx2_lt0 j⟩)) 0#32)
      (IntOp.addi (col (ix1 ⟨(j 0).val, idx2_lt0 j⟩)) 100000#32) (col (ix1 ⟨(j 0).val, idx2_lt0 j⟩))).toInt = _
  rw [select_wrap_of_nonneg _ h0]
  exact e0.symm

/-! ## The law -/

/-- THE DESTINATION'S FACTOR LEAVES THE SEGMENT SUM, for a factor that is a nonnegative real at every node. -/
theorem aggR_eq (h : FVec Ideal S100000x128 .f32) (row col : IVec S1700000 32) (ew : FVec Ideal S1700000 .f32)
    (dinv : FVec Ideal S100000 .f32) (hd0 : ∀ n, (0 : EReal) ≤ dinv n) (hdt : ∀ n, (dinv n : EReal) ≠ ⊤)
    (i : S100000x128.Idx) :
    (aggR h row col ew dinv i : EReal) = aggK h row col ew dinv i * dinv (ix1 ⟨(i 0).val, idx2_lt0 i⟩) := by
  unfold aggR aggK segsum
  refine Cert.Lib.SegmentScale.hostScatterAdd_mul scatter_S100000x128_S1700000x1_S1700000x128_1_0_0_1 zeros2 (rawIdx col) _ _
    (fun i => dinv (ix1 ⟨(i 0).val, idx2_lt0 i⟩)) zeros2_apply (fun i => hd0 _) (fun i => hdt _) (fun j i hj => ?_) i
  simp only [mulf_apply, spread_apply]
  rw [dest_factor col dinv j i hj]
  exact (mul_assoc _ _ _).symm

/-! ## The factor is a nonnegative real -/

/-- `where(d > 0, rsqrt d, 0)` is a nonnegative real at every extended real `d`: `rsqrt ⊤ = 0`, and `rsqrt` of a
    positive real is the reciprocal of its square root. -/
theorem factor_nonneg (d : EReal) :
    0 ≤ Scalar.select (Ideal.cmp .ogt d 0) (Ideal.rsqrt d) (0 : EReal)
      ∧ Scalar.select (Ideal.cmp .ogt d 0) (Ideal.rsqrt d) (0 : EReal) ≠ ⊤ := by
  unfold Scalar.select
  by_cases h : (0 : EReal) < d
  · have hc : Ideal.cmp .ogt d 0 = (1 : BitVec 1) := by simp [Ideal.cmp, h]
    rw [if_pos hc]
    induction d using EReal.rec with
    | bot => exact absurd h (by simp)
    | top => rw [Ideal.rsqrt_top]; exact ⟨le_rfl, EReal.zero_ne_top⟩
    | coe r =>
      have hr : 0 < r := by exact_mod_cast h
      rw [Ideal.rsqrt_coe, if_neg (not_lt.mpr hr.le), if_neg hr.ne']
      exact ⟨by exact_mod_cast inv_nonneg.mpr (Real.sqrt_nonneg r), EReal.coe_ne_top _⟩
  · have hc : ¬ Ideal.cmp .ogt d 0 = (1 : BitVec 1) := by simp [Ideal.cmp, h]
    rw [if_neg hc]
    exact ⟨le_rfl, EReal.zero_ne_top⟩

variable (x1 : (⟨S2x1600000, .i32⟩ : BufTy).Contents (Elt Ideal)) (x2 : (⟨S1600000, .f32⟩ : BufTy).Contents (Elt Ideal))

/-- The programs' factor `dinv` is a nonnegative real at every node, whatever the edge weights. -/
theorem dinv_nonneg (n : S100000.Idx) :
    (0 : EReal) ≤ val_main_v42 (F := Ideal) x1 x2 n ∧ (val_main_v42 (F := Ideal) x1 x2 n : EReal) ≠ ⊤ := by
  rw [val_main_v42_apply, val_main_v40_apply, val_main_v41_apply, val_main_call1_v1_apply, val_main_call1_v0_apply,
    val_main_cst_7_apply, val_main_v39_apply, val_main_cst_6_apply]
  simp only [Ideal.cmpf_def, Ideal.hostUnary_rsqrt_def, Ideal.ofBits_def, Ideal.ofBits_zero_f32]
  exact factor_nonneg _

/-! ## The reference's result through the pieces -/

variable (x0 : (⟨S100000x128, .f32⟩ : BufTy).Contents (Elt Ideal)) (x3 x4 : (⟨S128, .f32⟩ : BufTy).Contents (Elt Ideal))
  (x5 : (⟨S128x128, .f32⟩ : BufTy).Contents (Elt Ideal)) (x6 : (⟨S128, .f32⟩ : BufTy).Contents (Elt Ideal))

/-- The reference's segment sum is `aggR` of its hidden features, its edge lists with the self loops, and its factor. -/
theorem v71_eq : val_main_v71 (F := Ideal) x0 x1 x2 x3 x4 x5
    = aggR (val_main_v26 (F := Ideal) x0 x3 x4 x5) (val_main_v32 (F := Ideal) x1) (val_main_v33 (F := Ideal) x1)
        (val_main_v35 (F := Ideal) x2) (val_main_v42 (F := Ideal) x1 x2) := rfl

/-- THE REFERENCE'S RESULT at `(n, c)`: the kernel-style aggregate of the reference's hidden features, scaled by the
    destination's factor, plus the bias. -/
theorem result_apply (i : S100000x128.Idx) :
    (val_main_v74 (F := Ideal) x0 x1 x2 x3 x4 x5 x6 i : EReal)
      = aggK (val_main_v26 (F := Ideal) x0 x3 x4 x5) (val_main_v32 (F := Ideal) x1) (val_main_v33 (F := Ideal) x1)
            (val_main_v35 (F := Ideal) x2) (val_main_v42 (F := Ideal) x1 x2) i
          * val_main_v42 (F := Ideal) x1 x2 (ix1 ⟨(i 0).val, idx2_lt0 i⟩)
        + x6 (ix1 ⟨(i 1).val, idx2_lt1 i⟩) := by
  rw [val_main_v74_apply, val_main_v73_apply, val_main_v72_apply, v71_eq,
    aggR_eq _ _ _ _ _ (fun n => (dinv_nonneg x1 x2 n).1) (fun n => (dinv_nonneg x1 x2 n).2),
    show idx_main_v72 (idx_main_v73 i) = ix1 ⟨(i 1).val, idx2_lt1 i⟩ from
      funext fun a => Fin.ext (by match a with | ⟨0, _⟩ => rfl)]
  rfl

end Cert.ReferenceIdeal.Tail

end
-- ==== Proof.HostAgg.lean ====
/-
  The last stretch of host operations before the second region, read off its fold over any buffer contents `W`: the
  wrapped source ids, the factor and the hidden rows gathered at the sources, the messages weighted and summed per
  destination — the shared aggregate `aggK` of the buffers the stretch reads —, the factor reshaped into a column and
  the bias into a row.
-/
import proofs.«180763_j17145509446019_2_alg».proof.Proof.Gen.KernelIdeal.Frame
import proofs.«180763_j17145509446019_2_alg».proof.Proof.Tail
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.HostV

open Cert.KernelIdeal Cert.KernelIdeal.Gen

variable (W : Valuation τ sig (Elt Ideal))

/-! ## The aggregate, and the second region's column and row -/

theorem o2_bias : StableHlo.after hostOps1_2 W (Proc.devRef .tc main_v42)
    = shapeCast S1x128 (W (Proc.devRef .tc main_arg6)) shapeCasts_S128_S1x128 := by
  after_results; rfl
theorem o2_dcol : StableHlo.after hostOps1_2 W (Proc.devRef .tc main_v41)
    = shapeCast S100000x1 (W (Proc.devRef .tc main_v18)) shapeCasts_S100000_S100000x1 := by
  after_results; rfl
set_option maxHeartbeats 1000000 in
theorem o2_agg : StableHlo.after hostOps1_2 W (Proc.devRef .tc main_v40)
    = Cert.ReferenceIdeal.Tail.aggK (W (Proc.devRef .tc main_v2)) (W (Proc.devRef .tc main_v8)) (W (Proc.devRef .tc main_v9))
        (W (Proc.devRef .tc main_v11)) (W (Proc.devRef .tc main_v18)) := by
  after_results; rfl

end Cert.KernelIdeal.HostV

end
-- ==== Proof.RefHidden.lean ====
/-
  The reference's hidden features are the specification's.

  The reference normalises all 100000 rows at once: a host sum over the 128 features kept as a column and divided by
  128 (the mean), the centred entries squared, summed and divided again (the variance), `rsqrt` of the variance plus
  ε, the product with `gamma`, the sum with `beta`, the maximum with zero, and one `dot_general` against the transposed
  weights. Read at an index each stage is the specification's row function of row `n` of `x`; a host sum starts from a
  zero word, which denotes 0.
-/
import proofs.«180763_j17145509446019_2_alg».proof.Proof.Gen.ReferenceIdeal.Read
import proofs.«180763_j17145509446019_2_alg».proof.Proof.Spec
import Idealize.ShloMosaic.Lib.ValueIdx
import Idealize.ShloMosaic.PureOps.Ideal.Laws

noncomputable section

open scoped BigOperators
open Idealize.ShloMosaic Idealize.ShloMosaic.ValueIdx

namespace Cert.ReferenceIdeal.Hidden

open Cert.ReferenceIdeal Cert.ReferenceIdeal.Gen Cert.ReferenceIdeal.Read Cert.Spec

variable (x0 : (⟨S100000x128, .f32⟩ : BufTy).Contents (Elt Ideal)) (x3 x4 : (⟨S128, .f32⟩ : BufTy).Contents (Elt Ideal))
  (x5 : (⟨S128x128, .f32⟩ : BufTy).Contents (Elt Ideal))

/-- The mean column at row `r`. -/
theorem mean_apply (r : Fin 100000) (u : Fin 1) :
    (val_main_v3 (F := Ideal) x0 (ix2 r u) : EReal) = mean (rowOf x0 r) := by
  rw [val_main_v3_apply, val_main_v1_apply, val_main_v2_apply, val_main_cst_0_apply, val_main_v0_apply, val_main_cst_apply]
  simp only [Ideal.hostDivf_def, Ideal.ofBits_def, Ideal.ofBits_zero_f32, zero_add]
  unfold mean
  refine congrArg (Ideal.div · _) (Finset.sum_congr rfl fun k _ => ?_)
  exact congrArg x0 (funext fun a => Fin.ext (by match a with | ⟨0, _⟩ => rfl | ⟨1, _⟩ => rfl))

/-- A centred entry (the stage the variance squares). -/
theorem centred_apply (r : Fin 100000) (k : Fin 128) :
    (val_main_v5 (F := Ideal) x0 (ix2 r k) : EReal) = rowOf x0 r k - mean (rowOf x0 r) := by
  rw [val_main_v5_apply, val_main_v4_apply,
    show idx_main_v4 (ix2 r k) = ix2 r (0 : Fin 1) from funext fun a => Fin.ext (by match a with | ⟨0, _⟩ => rfl | ⟨1, _⟩ => rfl),
    mean_apply]
  rfl

/-- A centred entry (the stage the normalisation scales: the same subtraction, printed a second time). -/
theorem centred'_apply (r : Fin 100000) (k : Fin 128) :
    (val_main_v12 (F := Ideal) x0 (ix2 r k) : EReal) = rowOf x0 r k - mean (rowOf x0 r) := by
  rw [val_main_v12_apply, val_main_v11_apply,
    show idx_main_v11 (ix2 r k) = ix2 r (0 : Fin 1) from funext fun a => Fin.ext (by match a with | ⟨0, _⟩ => rfl | ⟨1, _⟩ => rfl),
    mean_apply]
  rfl

/-- The reciprocal standard deviation column at row `r`. -/
theorem rstd_apply (r : Fin 100000) (u : Fin 1) :
    (val_main_v15 (F := Ideal) x0 (ix2 r u) : EReal) = rstd (rowOf x0 r) := by
  rw [val_main_v15_apply, val_main_v14_apply, val_main_v13_apply, val_main_cst_3_apply, val_main_v10_apply, val_main_v9_apply,
    val_main_cst_2_apply, val_main_v8_apply, val_main_v7_apply, val_main_cst_1_apply]
  simp only [Ideal.hostUnary_rsqrt_def, Ideal.addf_def, Ideal.hostDivf_def, Ideal.ofBits_def, Ideal.ofBits_zero_f32, zero_add]
  unfold rstd
  refine congrArg (fun s => Ideal.rsqrt (Ideal.div s _ + _)) (Finset.sum_congr rfl fun k _ => ?_)
  rw [val_main_v6_apply,
    show idx_main_v7 (idx_main_v8 (ix2 r u)) k = ix2 r k from funext fun a => Fin.ext (by match a with | ⟨0, _⟩ => rfl | ⟨1, _⟩ => rfl),
    centred_apply]
  rfl

/-- The activated entry `(r, k)`. -/
theorem act_apply (r : Fin 100000) (k : Fin 128) :
    (val_main_v24 (F := Ideal) x0 x3 x4 (ix2 r k) : EReal)
      = act (rowOf x0 r) (fun k' => x3 (ix1 k')) (fun k' => x4 (ix1 k')) k := by
  rw [val_main_v24_apply, val_main_call0_v0_apply, val_main_call0_cst_apply, val_main_v23_apply, val_main_v22_apply, val_main_v21_apply,
    val_main_v20_apply, val_main_v19_apply, val_main_v18_apply, val_main_v17_apply, val_main_v16_apply, centred'_apply,
    show idx_main_v16 (ix2 r k) = ix2 r (0 : Fin 1) from funext fun a => Fin.ext (by match a with | ⟨0, _⟩ => rfl | ⟨1, _⟩ => rfl),
    rstd_apply,
    show idx_main_v18 (idx_main_v19 (ix2 r k)) = ix1 k from funext fun a => Fin.ext (by match a with | ⟨0, _⟩ => rfl),
    show idx_main_v21 (idx_main_v22 (ix2 r k)) = ix1 k from funext fun a => Fin.ext (by match a with | ⟨0, _⟩ => rfl)]
  rfl

/-- The reference's hidden features are the specification's function of the arguments. -/
theorem hidden_eq : (val_main_v26 (F := Ideal) x0 x3 x4 x5 : S100000x128.Idx → EReal) = hiddenOf x0 x3 x4 x5 := by
  funext i
  obtain ⟨n, j, rfl⟩ : ∃ (n : Fin 100000) (j : Fin 128), i = ix2 n j := ⟨i 0, i 1, eq_ix2 i⟩
  rw [val_main_v26_apply]
  unfold hiddenOf
  refine Finset.sum_congr rfl fun k _ => ?_
  rw [show lidx_main_v26 (ix2 n j) k = ix2 n k from funext fun a => Fin.ext (by match a with | ⟨0, _⟩ => rfl | ⟨1, _⟩ => rfl),
    act_apply, val_main_v25_apply,
    show idx_main_v25 (ridx_main_v26 (ix2 n j) k) = ix2 j k from funext fun a => Fin.ext (by match a with | ⟨0, _⟩ => rfl | ⟨1, _⟩ => rfl)]
  rfl

end Cert.ReferenceIdeal.Hidden

end
-- ==== Proof.KernelValue.lean ====
/-
  The idealized kernel's result is the reference's function of the arguments.

  Through the boundaries of the run: the result buffer ends at what the second region's ten write-backs leave, the
  aggregate scaled by the factor column plus the bias row (FinalizeValue); the aggregate, the column and the row it
  finds are the host operations' values (HostPre, HostEdges, HostFactor, HostAgg) — the shared aggregate `aggK` of what the first region left, the
  factor and the bias reshaped; the first region left the hidden features of the arguments (LinearValue), which are
  the reference's (RefHidden); and the reference's result at an index is the same aggregate scaled by the factor plus the
  bias (Tail: the destination's factor leaves the segment sum).
-/
import proofs.«180763_j17145509446019_2_alg».proof.Proof.KernelRun
import proofs.«180763_j17145509446019_2_alg».proof.Proof.FinalizeValue
import proofs.«180763_j17145509446019_2_alg».proof.Proof.LinearValue
import proofs.«180763_j17145509446019_2_alg».proof.Proof.HostPre
import proofs.«180763_j17145509446019_2_alg».proof.Proof.HostEdges
import proofs.«180763_j17145509446019_2_alg».proof.Proof.HostFactor
import proofs.«180763_j17145509446019_2_alg».proof.Proof.HostAgg
import proofs.«180763_j17145509446019_2_alg».proof.Proof.RefHidden
import proofs.«180763_j17145509446019_2_alg».proof.Proof.Tail
import Idealize.ShloMosaic.Lib.ValueLayout

set_option maxRecDepth 16384

noncomputable section

open Idealize.ShloMosaic Idealize.ShloMosaic.TcCoe Idealize.SL.Sem Idealize.ShloMosaic.ValueIdx

namespace Cert.KernelIdeal.ValueV

open Cert.KernelIdeal Cert.KernelIdeal.Gen Cert.Spec

variable (m : (ℓ : Loc nD τ sig) → Buf (Elt Ideal) ℓ) (ρ : Dev nD → PrngReg)

/-! ## The arguments as the regions and host stretches find them -/

theorem W1_arg0 (c : Dev nD) : W1 m ρ c (Proc.devRef .tc main_arg0) = (m ((c : Thread nD τ).loc main_arg0)) :=
  (HostV.o0_arg0 (W0 m ρ c)).trans rfl
theorem W1_arg5 (c : Dev nD) : W1 m ρ c (Proc.devRef .tc main_arg5) = (m ((c : Thread nD τ).loc main_arg5)) :=
  (HostV.o0_arg5 (W0 m ρ c)).trans rfl
theorem W1_gamma (c : Dev nD) : W1 m ρ c (Proc.devRef .tc main_v0) = shapeCast S1x128 (m ((c : Thread nD τ).loc main_arg3)) shapeCasts_S128_S1x128 :=
  (HostV.o0_gamma (W0 m ρ c)).trans rfl
theorem W1_beta (c : Dev nD) : W1 m ρ c (Proc.devRef .tc main_v1) = shapeCast S1x128 (m ((c : Thread nD τ).loc main_arg4)) shapeCasts_S128_S1x128 :=
  (HostV.o0_beta (W0 m ρ c)).trans rfl
theorem W2_arg1 (c : Dev nD) : W2 m ρ c (Proc.devRef .tc main_arg1) = (m ((c : Thread nD τ).loc main_arg1)) :=
  (W2_of_ne m ρ c main_arg1 (by decide)).trans ((HostV.o0_arg1 (W0 m ρ c)).trans rfl)
theorem W2_arg2 (c : Dev nD) : W2 m ρ c (Proc.devRef .tc main_arg2) = (m ((c : Thread nD τ).loc main_arg2)) :=
  (W2_of_ne m ρ c main_arg2 (by decide)).trans ((HostV.o0_arg2 (W0 m ρ c)).trans rfl)
theorem W2_arg6 (c : Dev nD) : W2 m ρ c (Proc.devRef .tc main_arg6) = (m ((c : Thread nD τ).loc main_arg6)) :=
  (W2_of_ne m ρ c main_arg6 (by decide)).trans ((HostV.o0_arg6 (W0 m ρ c)).trans rfl)

/-! ## What the first region leaves -/

/-- A `[128]` vector reshaped to a `[1, 128]` row, read as a row: the vector. -/
theorem rowOf_reshape (g : S128.Idx → EReal) : rowOf (n := 1) (shapeCast S1x128 g shapeCasts_S128_S1x128) 0 = fun k => g (ix1 k) := by
  funext k
  unfold rowOf
  exact shapeCast_a_1a_apply g shapeCasts_S128_S1x128 0 k

/-- The hidden features the first region leaves are the reference's. -/
theorem hidden_eq (c : Dev nD) :
    (W2 m ρ c (Proc.devRef .tc main_v2) : S100000x128.Idx → EReal)
      = Cert.ReferenceIdeal.Read.val_main_v26 (F := Ideal) (m ((c : Thread nD τ).loc main_arg0)) (m ((c : Thread nD τ).loc main_arg3)) (m ((c : Thread nD τ).loc main_arg4)) (m ((c : Thread nD τ).loc main_arg5)) := by
  rw [Cert.ReferenceIdeal.Hidden.hidden_eq]
  refine (W2_arr m ρ c 4).trans ?_
  rw [Linear.final]
  show hiddenRows (W1 m ρ c (Proc.devRef .tc main_arg0)) (W1 m ρ c (Proc.devRef .tc main_v0)) (W1 m ρ c (Proc.devRef .tc main_v1))
    (W1 m ρ c (Proc.devRef .tc main_arg5)) = _
  rw [W1_arg0, W1_arg5, W1_gamma, W1_beta]
  funext i
  unfold hiddenRows hiddenOf
  rw [rowOf_reshape, rowOf_reshape]

/-! ## What the second region finds -/

theorem W4_dinv (c : Dev nD) :
    W4 m ρ c (Proc.devRef .tc main_v18) = Cert.ReferenceIdeal.Read.val_main_v42 (F := Ideal) (m ((c : Thread nD τ).loc main_arg1)) (m ((c : Thread nD τ).loc main_arg2)) :=
  HostV.o11_dinv (W3 m ρ c) _ _
    ((HostV.o1_pos (W2 m ρ c)).trans (by rw [W2_arg1, W2_arg2]))
    ((HostV.o1_rsqrt (W2 m ρ c)).trans (by rw [W2_arg1, W2_arg2]))
    (HostV.o1_zero (W2 m ρ c))

theorem W5_bias (c : Dev nD) :
    W5 m ρ c (Proc.devRef .tc main_v42) = shapeCast S1x128 (m ((c : Thread nD τ).loc main_arg6)) shapeCasts_S128_S1x128 := by
  refine (HostV.o2_bias (W4 m ρ c)).trans ?_
  rw [show W4 m ρ c (Proc.devRef .tc main_arg6) = (m ((c : Thread nD τ).loc main_arg6)) from
    (HostV.o11_arg6 (W3 m ρ c)).trans ((HostV.o1_arg6 (W2 m ρ c)).trans (W2_arg6 m ρ c))]

theorem W5_dcol (c : Dev nD) :
    W5 m ρ c (Proc.devRef .tc main_v41)
      = shapeCast S100000x1 (Cert.ReferenceIdeal.Read.val_main_v42 (F := Ideal) (m ((c : Thread nD τ).loc main_arg1)) (m ((c : Thread nD τ).loc main_arg2))) shapeCasts_S100000_S100000x1 := by
  refine (HostV.o2_dcol (W4 m ρ c)).trans ?_
  rw [W4_dinv]

theorem W5_agg (c : Dev nD) :
    W5 m ρ c (Proc.devRef .tc main_v40)
      = Cert.ReferenceIdeal.Tail.aggK (Cert.ReferenceIdeal.Read.val_main_v26 (F := Ideal) (m ((c : Thread nD τ).loc main_arg0)) (m ((c : Thread nD τ).loc main_arg3)) (m ((c : Thread nD τ).loc main_arg4)) (m ((c : Thread nD τ).loc main_arg5)))
          (Cert.ReferenceIdeal.Read.val_main_v32 (F := Ideal) (m ((c : Thread nD τ).loc main_arg1))) (Cert.ReferenceIdeal.Read.val_main_v33 (F := Ideal) (m ((c : Thread nD τ).loc main_arg1)))
          (Cert.ReferenceIdeal.Read.val_main_v35 (F := Ideal) (m ((c : Thread nD τ).loc main_arg2))) (Cert.ReferenceIdeal.Read.val_main_v42 (F := Ideal) (m ((c : Thread nD τ).loc main_arg1)) (m ((c : Thread nD τ).loc main_arg2))) := by
  refine (HostV.o2_agg (W4 m ρ c)).trans ?_
  rw [W4_dinv,
    show W4 m ρ c (Proc.devRef .tc main_v2) = W2 m ρ c (Proc.devRef .tc main_v2) from
      (HostV.o11_hidden (W3 m ρ c)).trans (HostV.o1_hidden (W2 m ρ c)),
    show W4 m ρ c (Proc.devRef .tc main_v8) = Cert.ReferenceIdeal.Read.val_main_v32 (F := Ideal) (m ((c : Thread nD τ).loc main_arg1)) from
      (HostV.o11_row (W3 m ρ c)).trans ((HostV.o1_row (W2 m ρ c)).trans (by rw [W2_arg1])),
    show W4 m ρ c (Proc.devRef .tc main_v9) = Cert.ReferenceIdeal.Read.val_main_v33 (F := Ideal) (m ((c : Thread nD τ).loc main_arg1)) from
      (HostV.o11_col (W3 m ρ c)).trans ((HostV.o1_col (W2 m ρ c)).trans (by rw [W2_arg1])),
    show W4 m ρ c (Proc.devRef .tc main_v11) = Cert.ReferenceIdeal.Read.val_main_v35 (F := Ideal) (m ((c : Thread nD τ).loc main_arg2)) from
      (HostV.o11_ew (W3 m ρ c)).trans ((HostV.o1_ew (W2 m ρ c)).trans (by rw [W2_arg2])),
    hidden_eq]

/-! ## The result -/

/-- The kernel's result buffer ends holding the reference's result function of the arguments. -/
theorem result_eq (c : Dev nD) :
    (W6 m ρ c (Proc.devRef .tc main_v43) : S100000x128.Idx → EReal)
      = Cert.ReferenceIdeal.Read.val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W6_arr m ρ c 3).trans ?_
  rw [Finalize.final]
  show Finalize.scaled (W5 m ρ c (Proc.devRef .tc main_v40)) (W5 m ρ c (Proc.devRef .tc main_v41)) (W5 m ρ c (Proc.devRef .tc main_v42)) = _
  rw [W5_agg, W5_dcol, W5_bias]
  funext i
  rw [Cert.ReferenceIdeal.Tail.result_apply]
  unfold Finalize.scaled
  rw [Keepdims.shapeCast_a_a1_apply, shapeCast_a_1a_apply]

end Cert.KernelIdeal.ValueV

end
-- ==== Proof.lean ====
/-
  A graph-convolution block: LayerNorm, ReLU and a linear layer on the node features, then the degree-normalised
  aggregation over the edges with self loops, against its plain jnp reference, on the extended reals.

  The kernel program computes the hidden features `h = relu(LN(x)) Wᵀ` in a first pipelined region, ten row blocks of
  10000 nodes; takes the degree and the factor `dinv = where(deg > 0, rsqrt(deg), 0)` and sums the messages
  `h[row e] · (dinv[row e] · ew e)` per destination with host operations; and in a second region multiplies
  destination `n`'s sum by `dinv[n]` and adds the bias. The reference computes `h` with one `dot_general`, weights
  edge `e` by `dinv[row e] · ew e · dinv[col e]`, sums per destination and adds the bias.

  The two are one function of the arguments. The hidden features agree index by index: a change of float format is the
  identity, a lane sum, a host sum and both matrix products are the same finite sums (LinearValue, RefHidden, over
  Spec). The destination's factor leaves the segment sum (Tail): an edge's update lands on node `n` exactly when its
  destination id is `n`, where the gather `dinv[col e]` reads `dinv[n]`; and `dinv[n]` is a nonnegative real whatever
  the weights are (`rsqrt ⊤ = 0`), which distributes over any sum of extended reals. So the claim needs no finiteness of
  the inputs: the precondition is not opened.

  The frames of the two kernel programs are the generated ones; the reference's is its generated run with the result
  dropped. The ideal pass rewrote nothing, so the idealization is the program's own text read on the extended reals.
-/
import proofs.«180763_j17145509446019_2_alg».proof.Defs
import proofs.«180763_j17145509446019_2_alg».proof.Proof.Gen.Kernel
import proofs.«180763_j17145509446019_2_alg».proof.Proof.Gen.Kernel.Skeleton
import proofs.«180763_j17145509446019_2_alg».proof.Proof.Gen.Kernel.Launch
import proofs.«180763_j17145509446019_2_alg».proof.Proof.Gen.Kernel.Points
import proofs.«180763_j17145509446019_2_alg».proof.Proof.Gen.Kernel.Frame
import proofs.«180763_j17145509446019_2_alg».proof.Proof.Gen.KernelIdeal
import proofs.«180763_j17145509446019_2_alg».proof.Proof.Gen.KernelIdeal.Skeleton
import proofs.«180763_j17145509446019_2_alg».proof.Proof.Gen.KernelIdeal.Launch
import proofs.«180763_j17145509446019_2_alg».proof.Proof.Gen.KernelIdeal.Points
import proofs.«180763_j17145509446019_2_alg».proof.Proof.Gen.KernelIdeal.Frame
import proofs.«180763_j17145509446019_2_alg».proof.Proof.Gen.ReferenceIdeal
import proofs.«180763_j17145509446019_2_alg».proof.Proof.Gen.Pre_finite_inputs
import proofs.«180763_j17145509446019_2_alg».proof.Proof.Gen.ReferenceIdeal.Run
import proofs.«180763_j17145509446019_2_alg».proof.Proof.Gen.ReferenceIdeal.Read
import proofs.«180763_j17145509446019_2_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs run, from memories agreeing on the arguments, to the same result: the kernel's result buffer ends at the
    reference's result function of the arguments, which is what the reference's run ends at. -/
theorem algebraic : Cert.algebraic_KernelIdeal_ReferenceIdeal := by
  intro m ρ m' ρ' _ hagree
  refine ⟨fun c => Cert.KernelIdeal.Gen.W6 m ρ c (Proc.devRef .tc Cert.KernelIdeal.main_v43),
    Cert.KernelIdeal.RunV.run_result m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v74_eq, (hagree c).1, (hagree c).2.1, (hagree c).2.2.1, (hagree c).2.2.2.1,
    (hagree c).2.2.2.2.1, (hagree c).2.2.2.2.2.1, (hagree c).2.2.2.2.2.2]
  exact (Cert.KernelIdeal.ValueV.result_eq m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
